-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S2x1250000 : Shape := ⟨2, ![2, 1250000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S64x32 .f32) (main_arg8 : FVec F S32 .f32) (main_arg9 : FVec F S32x2 .f32) (main_arg10 : FVec F S2 .f32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x2 .f32 := Host.absf main_arg9
  let main_cst_16 : FVec F S_ .f32 := constant S_ .f32 0x7F800000#32
  let main_v45 : FVec F S32x2 .f32 := broadcastInDim S32x2 ![] bcast_S_S32x2 main_cst_16
  let main_v46 : IVec S32x2 1 := cmpf .olt main_v44 main_v45
  let main_c_17 : IVec S_ 1 := constantI S_ 1 1#1
  let main_v47 : IVec S_ 1 := (fun x v => Host.reduce IntOp.andi x v reducesTo_S32x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x32 .f32) (main_arg8 : FVec F S32 .f32) (main_arg9 : FVec F S32x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x32 .f32) (main_arg8 : FVec F S32 .f32) (main_arg9 : FVec F S32x2 .f32) (main_arg10 : FVec F S2 .f32) (main_arg11 : IVec S2x1250000 32) (main_arg12 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S100000x64 : Shape := ⟨2, ![100000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S2x1250000 : Shape := ⟨2, ![2, 1250000]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S10000x64 : Shape := ⟨2, ![10000, 64]⟩
abbrev S1350000x64 : Shape := ⟨2, ![1350000, 64]⟩
abbrev S1x64 : Shape := ⟨2, ![1, 64]⟩
abbrev S100000x1 : Shape := ⟨2, ![100000, 1]⟩
abbrev S64x1 : Shape := ⟨2, ![64, 1]⟩
abbrev S1x32 : Shape := ⟨2, ![1, 32]⟩
abbrev S1x2 : Shape := ⟨2, ![1, 2]⟩
abbrev S64x2 : Shape := ⟨2, ![64, 2]⟩

abbrev nBuf : Space → Nat
  | .hbm => 127
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x2, .f32⟩
  | .hbm, ⟨10, _⟩ => ⟨S2, .f32⟩
  | .hbm, ⟨11, _⟩ => ⟨S2x1250000, .i32⟩
  | .hbm, ⟨12, _⟩ => ⟨S100000, .i32⟩
  | .hbm, ⟨13, _⟩ => ⟨S100000, .i32⟩
  | .hbm, ⟨14, _⟩ => ⟨S1x1250000, .i32⟩
  | .hbm, ⟨15, _⟩ => ⟨S1250000, .i32⟩
  | .hbm, ⟨16, _⟩ => ⟨S1350000, .i32⟩
  | .hbm, ⟨17, _⟩ => ⟨S1x1250000, .i32⟩
  | .hbm, ⟨18, _⟩ => ⟨S1250000, .i32⟩
  | .hbm, ⟨19, _⟩ => ⟨S1350000, .i32⟩
  | .hbm, ⟨20, _⟩ => ⟨S_, .f32⟩
  | .hbm, ⟨21, _⟩ => ⟨S1350000, .f32⟩
  | .hbm, ⟨22, _⟩ => ⟨S_, .f32⟩
  | .hbm, ⟨23, _⟩ => ⟨S100000, .f32⟩
  | .hbm, ⟨24, _⟩ => ⟨S1350000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1350000, .i32⟩
  | .hbm, ⟨36, _⟩ => ⟨S1350000, .i1⟩
  | .hbm, ⟨37, _⟩ => ⟨S_, .i32⟩
  | .hbm, ⟨38, _⟩ => ⟨S1350000, .i32⟩
  | .hbm, ⟨39, _⟩ => ⟨S1350000, .i32⟩
  | .hbm, ⟨40, _⟩ => ⟨S1350000, .i32⟩
  | .hbm, ⟨41, _⟩ => ⟨S1350000x1, .i32⟩
  | .hbm, ⟨42, _⟩ => ⟨S1350000, .f32⟩
  | .hbm, ⟨43, _⟩ => ⟨S_, .i32⟩
  | .hbm, ⟨44, _⟩ => ⟨S1350000, .i32⟩
  | .hbm, ⟨45, _⟩ => ⟨S1350000, .i1⟩
  | .hbm, ⟨46, _⟩ => ⟨S_, .i32⟩
  | .hbm, ⟨47, _⟩ => ⟨S1350000, .i32⟩
  | .hbm, ⟨48, _⟩ => ⟨S1350000, .i32⟩
  | .hbm, ⟨49, _⟩ => ⟨S1350000, .i32⟩
  | .hbm, ⟨50, _⟩ => ⟨S1350000x1, .i32⟩
  | .hbm, ⟨51, _⟩ => ⟨S1350000, .f32⟩
  | .hbm, ⟨52, _⟩ => ⟨S1350000, .f32⟩
  | .hbm, ⟨53, _⟩ => ⟨S100000x64, .f32⟩
  | .hbm, ⟨54, _⟩ => ⟨S_, .i32⟩
  | .hbm, ⟨55, _⟩ => ⟨S1350000, .i32⟩
  | .hbm, ⟨56, _⟩ => ⟨S1350000, .i1⟩
  | .hbm, ⟨57, _⟩ => ⟨S_, .i32⟩
  | .hbm, ⟨58, _⟩ => ⟨S1350000, .i32⟩
  | .hbm, ⟨59, _⟩ => ⟨S1350000, .i32⟩
  | .hbm, ⟨60, _⟩ => ⟨S1350000, .i32⟩
  | .hbm, ⟨61, _⟩ => ⟨S1350000x1, .i32⟩
  | .hbm, ⟨62, _⟩ => ⟨S1350000x64, .f32⟩
  | .hbm, ⟨63, _⟩ => ⟨S1350000x1, .f32⟩
  | .hbm, ⟨64, _⟩ => ⟨S1350000x64, .f32⟩
  | .hbm, ⟨65, _⟩ => ⟨S1350000x64, .f32⟩
  | .hbm, ⟨66, _⟩ => ⟨S_, .f32⟩
  | .hbm, ⟨67, _⟩ => ⟨S100000x64, .f32⟩
  | .hbm, ⟨68, _⟩ => ⟨S1350000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S_, .i32⟩
  | .hbm, ⟨73, _⟩ => ⟨S1350000, .i32⟩
  | .hbm, ⟨74, _⟩ => ⟨S1350000, .i1⟩
  | .hbm, ⟨75, _⟩ => ⟨S_, .i32⟩
  | .hbm, ⟨76, _⟩ => ⟨S1350000, .i32⟩
  | .hbm, ⟨77, _⟩ => ⟨S1350000, .i32⟩
  | .hbm, ⟨78, _⟩ => ⟨S1350000, .i32⟩
  | .hbm, ⟨79, _⟩ => ⟨S1350000x1, .i32⟩
  | .hbm, ⟨80, _⟩ => ⟨S1350000x64, .f32⟩
  | .hbm, ⟨81, _⟩ => ⟨S1350000x1, .f32⟩
  | .hbm, ⟨82, _⟩ => ⟨S1350000x64, .f32⟩
  | .hbm, ⟨83, _⟩ => ⟨S1350000x64, .f32⟩
  | .hbm, ⟨84, _⟩ => ⟨S_, .f32⟩
  | .hbm, ⟨85, _⟩ => ⟨S100000x64, .f32⟩
  | .hbm, ⟨86, _⟩ => ⟨S1350000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S_, .i32⟩
  | .hbm, ⟨91, _⟩ => ⟨S1350000, .i32⟩
  | .hbm, ⟨92, _⟩ => ⟨S1350000, .i1⟩
  | .hbm, ⟨93, _⟩ => ⟨S_, .i32⟩
  | .hbm, ⟨94, _⟩ => ⟨S1350000, .i32⟩
  | .hbm, ⟨95, _⟩ => ⟨S1350000, .i32⟩
  | .hbm, ⟨96, _⟩ => ⟨S1350000, .i32⟩
  | .hbm, ⟨97, _⟩ => ⟨S1350000x1, .i32⟩
  | .hbm, ⟨98, _⟩ => ⟨S1350000x64, .f32⟩
  | .hbm, ⟨99, _⟩ => ⟨S1350000x1, .f32⟩
  | .hbm, ⟨100, _⟩ => ⟨S1350000x64, .f32⟩
  | .hbm, ⟨101, _⟩ => ⟨S1350000x64, .f32⟩
  | .hbm, ⟨102, _⟩ => ⟨S_, .f32⟩
  | .hbm, ⟨103, _⟩ => ⟨S100000x64, .f32⟩
  | .hbm, ⟨104, _⟩ => ⟨S1350000x1, .i32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S_, .f32⟩
  | .hbm, ⟨109, _⟩ => ⟨S64x64, .f32⟩
  | .hbm, ⟨110, _⟩ => ⟨S100000x1, .i32⟩
  | .hbm, ⟨111, _⟩ => ⟨S64x64, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S64, .f32⟩
  | .hbm, ⟨116, _⟩ => ⟨S100000x1, .i32⟩
  | .hbm, ⟨117, _⟩ => ⟨S64, .f32⟩
  | .hbm, ⟨118, _⟩ => ⟨S_, .f32⟩
  | .hbm, ⟨119, _⟩ => ⟨S64, .f32⟩
  | .hbm, ⟨120, _⟩ => ⟨S64, .f32⟩
  | .hbm, ⟨121, _⟩ => ⟨S64x1, .f32⟩
  | .hbm, ⟨122, _⟩ => ⟨S64x64, .f32⟩
  | .hbm, ⟨123, _⟩ => ⟨S64x64, .f32⟩
  | .hbm, ⟨124, _⟩ => ⟨S1x32, .f32⟩
  | .hbm, ⟨125, _⟩ => ⟨S1x2, .f32⟩
  | .hbm, ⟨126, _⟩ => ⟨S64x2, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x32, .f32⟩
  | .local _ .vmem, ⟨24, _⟩ => ⟨S1x32, .f32⟩
  | .local _ .vmem, ⟨25, _⟩ => ⟨S32x2, .f32⟩
  | .local _ .vmem, ⟨26, _⟩ => ⟨S1x2, .f32⟩
  | .local _ .vmem, ⟨27, _⟩ => ⟨S64x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_18 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S32_S1x32 : S32.ShapeCasts S1x32
  shapeCasts_S2_S1x2 : S2.ShapeCasts S1x2
  shapeCasts_S64x64_S64x64 : S64x64.ShapeCasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x64_S64x64_S10000x64_1_0_0_1_n_n_wf : DotDims.WF S10000x64 S64x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x2_S64x2_1_0_0_1_n_n_wf : DotDims.WF S64x32 S32x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x2.size a ≤ S32x2.size a
  hwx4_3 : ∀ i : grid4.Coords, EltTy.bits .f32 = 32 ∨ (Rect.block (s := S32x2) S32x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x2.size a ≤ S64x2.size a
  hwx4_5 : ∀ i : grid4.Coords, EltTy.bits .f32 = 32 ∨ (Rect.block (s := S64x2) S64x2.size (cc4_transform_5 i) (hinb4_5 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S64x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S32x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v90) S64x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S2x1250000 : Shape := ⟨2, ![2, 1250000]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S1x64 : Shape := ⟨2, ![1, 64]⟩
abbrev S100000x1 : Shape := ⟨2, ![100000, 1]⟩
abbrev S64x1 : Shape := ⟨2, ![64, 1]⟩
abbrev S1x32 : Shape := ⟨2, ![1, 32]⟩
abbrev S64x2 : Shape := ⟨2, ![64, 2]⟩
abbrev S1x2 : Shape := ⟨2, ![1, 2]⟩

abbrev nBuf : Space → Nat
  | .hbm => 149
  | .vmem => 0
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x2, .f32⟩
  | 10 => ⟨S2, .f32⟩
  | 11 => ⟨S2x1250000, .i32⟩
  | 12 => ⟨S100000, .i32⟩
  | 13 => ⟨S100000, .i32⟩
  | 14 => ⟨S1x1250000, .i32⟩
  | 15 => ⟨S1250000, .i32⟩
  | 16 => ⟨S1350000, .i32⟩
  | 17 => ⟨S1x1250000, .i32⟩
  | 18 => ⟨S1250000, .i32⟩
  | 19 => ⟨S1350000, .i32⟩
  | 20 => ⟨S_, .f32⟩
  | 21 => ⟨S1350000, .f32⟩
  | 22 => ⟨S_, .f32⟩
  | 23 => ⟨S100000, .f32⟩
  | 24 => ⟨S1350000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1350000, .i32⟩
  | 36 => ⟨S1350000, .i1⟩
  | 37 => ⟨S_, .i32⟩
  | 38 => ⟨S1350000, .i32⟩
  | 39 => ⟨S1350000, .i32⟩
  | 40 => ⟨S1350000, .i32⟩
  | 41 => ⟨S1350000x1, .i32⟩
  | 42 => ⟨S1350000, .f32⟩
  | 43 => ⟨S_, .i32⟩
  | 44 => ⟨S1350000, .i32⟩
  | 45 => ⟨S1350000, .i1⟩
  | 46 => ⟨S_, .i32⟩
  | 47 => ⟨S1350000, .i32⟩
  | 48 => ⟨S1350000, .i32⟩
  | 49 => ⟨S1350000, .i32⟩
  | 50 => ⟨S1350000x1, .i32⟩
  | 51 => ⟨S1350000, .f32⟩
  | 52 => ⟨S1350000, .f32⟩
  | 53 => ⟨S100000x64, .f32⟩
  | 54 => ⟨S_, .i32⟩
  | 55 => ⟨S1350000, .i32⟩
  | 56 => ⟨S1350000, .i1⟩
  | 57 => ⟨S_, .i32⟩
  | 58 => ⟨S1350000, .i32⟩
  | 59 => ⟨S1350000, .i32⟩
  | 60 => ⟨S1350000, .i32⟩
  | 61 => ⟨S1350000x1, .i32⟩
  | 62 => ⟨S1350000x64, .f32⟩
  | 63 => ⟨S1350000x1, .f32⟩
  | 64 => ⟨S1350000x64, .f32⟩
  | 65 => ⟨S1350000x64, .f32⟩
  | 66 => ⟨S_, .f32⟩
  | 67 => ⟨S100000x64, .f32⟩
  | 68 => ⟨S1350000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S1350000, .i32⟩
  | 79 => ⟨S1350000, .i1⟩
  | 80 => ⟨S_, .i32⟩
  | 81 => ⟨S1350000, .i32⟩
  | 82 => ⟨S1350000, .i32⟩
  | 83 => ⟨S1350000, .i32⟩
  | 84 => ⟨S1350000x1, .i32⟩
  | 85 => ⟨S1350000x64, .f32⟩
  | 86 => ⟨S1350000x1, .f32⟩
  | 87 => ⟨S1350000x64, .f32⟩
  | 88 => ⟨S1350000x64, .f32⟩
  | 89 => ⟨S_, .f32⟩
  | 90 => ⟨S100000x64, .f32⟩
  | 91 => ⟨S1350000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1350000, .i32⟩
  | 102 => ⟨S1350000, .i1⟩
  | 103 => ⟨S_, .i32⟩
  | 104 => ⟨S1350000, .i32⟩
  | 105 => ⟨S1350000, .i32⟩
  | 106 => ⟨S1350000, .i32⟩
  | 107 => ⟨S1350000x1, .i32⟩
  | 108 => ⟨S1350000x64, .f32⟩
  | 109 => ⟨S1350000x1, .f32⟩
  | 110 => ⟨S1350000x64, .f32⟩
  | 111 => ⟨S1350000x64, .f32⟩
  | 112 => ⟨S_, .f32⟩
  | 113 => ⟨S100000x64, .f32⟩
  | 114 => ⟨S1350000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S64x64, .f32⟩
  | 124 => ⟨S100000x1, .i32⟩
  | 125 => ⟨S64x64, .f32⟩
  | 126 => ⟨S_, .f32⟩
  | 127 => ⟨S100000, .f32⟩
  | _ => ⟨S100000x64, .f32⟩

abbrev hbmTy0_1 (i : Nat) : BufTy := match i % 128 with
  | 0 => ⟨S_, .f32⟩
  | 1 => ⟨S64, .f32⟩
  | 2 => ⟨S100000x1, .i32⟩
  | 3 => ⟨S64, .f32⟩
  | 4 => ⟨S_, .f32⟩
  | 5 => ⟨S64, .f32⟩
  | 6 => ⟨S64, .f32⟩
  | 7 => ⟨S64x1, .f32⟩
  | 8 => ⟨S64x64, .f32⟩
  | 9 => ⟨S64x64, .f32⟩
  | 10 => ⟨S64x32, .f32⟩
  | 11 => ⟨S1x32, .f32⟩
  | 12 => ⟨S64x32, .f32⟩
  | 13 => ⟨S64x32, .f32⟩
  | 14 => ⟨S_, .f32⟩
  | 15 => ⟨S64x32, .f32⟩
  | 16 => ⟨S64x32, .f32⟩
  | 17 => ⟨S64x2, .f32⟩
  | 18 => ⟨S1x2, .f32⟩
  | 19 => ⟨S64x2, .f32⟩
  | 20 => ⟨S64x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x64_S64x64_S100000x64_1_0_0_1_n_n_wf : DotDims.WF S100000x64 S64x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x2_S64x2_1_0_0_1_n_n_wf : DotDims.WF S64x32 S32x2 S64x2 [1] [0] [0] [1] [] []

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

class Facts : Prop extends Facts₀ where

variable [Facts]
-- ==== Proof.ChainK.lean ====
/-
  The graph side of the computation, as the kernel's host program spells it: from the edge list, the edges with the
  self loops added, the degree normalisation of every edge, one round of message passing (gather the source rows,
  scale, sum at the targets), and the mean over the nodes of every graph.  These are the host operations that surround
  the launches; the reference program applies the same operations, so they are named here once and never opened.
-/
import proofs.«100298_j9079560864408_1_alg».proof.Proof.Gen.KernelIdeal
import Idealize.ShloMosaic.PureOps.Ideal

noncomputable section

namespace Cert.KernelIdeal.Chain

open Idealize.ShloMosaic Cert.KernelIdeal Cert.KernelIdeal.Facts₀

/-- The source node of every edge, then every node once (the self loops). -/
def srcOf (e : IVec S2x1250000 32) : IVec S1350000 32 :=
  concatenate S1350000 0 [⟨S1250000, (shapeCast _ (extractStridedSlice S1x1250000 ![0, 0] e slices_S2x1250000_S1x1250000_0_0) shapeCasts_S1x1250000_S1250000)⟩, ⟨S100000, (iotaInDim S100000 32 0)⟩] concatenates_S1250000_S100000_S1350000_d0

/-- The target node of every edge, then every node once. -/
def dstOf (e : IVec S2x1250000 32) : IVec S1350000 32 :=
  concatenate S1350000 0 [⟨S1250000, (shapeCast _ (extractStridedSlice S1x1250000 ![1, 0] e slices_S2x1250000_S1x1250000_1_0) shapeCasts_S1x1250000_S1250000)⟩, ⟨S100000, (iotaInDim S100000 32 0)⟩] concatenates_S1250000_S100000_S1350000_d0

/-- A node number read as an index: a negative one counts from the end. -/
def wrap (v : IVec S1350000 32) : IVec S1350000 32 :=
  select (cmpi .slt v (broadcastInDim S1350000 ![] bcast_S_S1350000 (constantI S_ 32 0#32))) (addi v (broadcastInDim S1350000 ![] bcast_S_S1350000 (constantI S_ 32 100000#32))) v

/-- The degree of every node: the number of edges (self loop included) that end there. -/
def degOf (e : IVec S2x1250000 32) : FVec Ideal S100000 .f32 :=
  Host.scatterAdd (F := Ideal) scatter_S100000_S1350000x1_S1350000_n_0_0_1 (broadcastInDim S100000 ![] bcast_S_S100000 (constant S_ .f32 0x00000000#32)) (broadcastInDim S1350000x1 ![0] bcast_S1350000_S1350000x1_0 (dstOf e)) (broadcastInDim S1350000 ![] bcast_S_S1350000 (constant S_ .f32 0x3F800000#32))

/-- deg^(-1/2) where the degree is positive, zero elsewhere. -/
def dinvOf (e : IVec S2x1250000 32) : FVec Ideal S100000 .f32 :=
  select (cmpf (F := Ideal) .ogt (degOf e) (broadcastInDim S100000 ![] bcast_S_S100000 (constant S_ .f32 0x00000000#32))) (Host.rsqrt (degOf e)) (broadcastInDim S100000 ![] bcast_S_S100000 (id (constant S_ .f32 0x00000000#32)))

/-- The symmetric normalisation of every edge: dinv(source) · dinv(target). -/
def normOf (e : IVec S2x1250000 32) : FVec Ideal S1350000 .f32 :=
  mulf (Host.gather gather_S100000_S1350000x1_S1350000_n_0_n_n_0_1_1 (dinvOf e) (broadcastInDim S1350000x1 ![0] bcast_S1350000_S1350000x1_0 (wrap (srcOf e)))) (Host.gather gather_S100000_S1350000x1_S1350000_n_0_n_n_0_1_1 (dinvOf e) (broadcastInDim S1350000x1 ![0] bcast_S1350000_S1350000x1_0 (wrap (dstOf e))))

/-- One round of message passing: every edge carries its source's row times the edge's normalisation to its target,
    where the rows are summed. -/
def aggOf (e : IVec S2x1250000 32) (h : FVec Ideal S100000x64 .f32) : FVec Ideal S100000x64 .f32 :=
  Host.scatterAdd (F := Ideal) scatter_S100000x64_S1350000x1_S1350000x64_1_0_0_1 (broadcastInDim S100000x64 ![] bcast_S_S100000x64 (constant S_ .f32 0x00000000#32)) (broadcastInDim S1350000x1 ![0] bcast_S1350000_S1350000x1_0 (dstOf e)) (mulf (Host.gather gather_S100000x64_S1350000x1_S1350000x64_1_0_n_n_0_1_164 h (broadcastInDim S1350000x1 ![0] bcast_S1350000_S1350000x1_0 (wrap (srcOf e)))) (broadcastInDim S1350000x64 ![0, 1] bcast_S1350000x1_S1350000x64_0_1 (broadcastInDim S1350000x1 ![0] bcast_S1350000_S1350000x1_0 (normOf e))))

/-- The mean of the rows of every graph: the rows summed by graph, over the number of the graph's nodes (at least one). -/
def poolOf (batch : IVec S100000 32) (h : FVec Ideal S100000x64 .f32) : FVec Ideal S64x64 .f32 :=
  Host.divf (F := Ideal) (Host.scatterAdd (F := Ideal) scatter_S64x64_S100000x1_S100000x64_1_0_0_1 (broadcastInDim S64x64 ![] bcast_S_S64x64 (constant S_ .f32 0x00000000#32)) (broadcastInDim S100000x1 ![0] bcast_S100000_S100000x1_0 batch) h) (broadcastInDim S64x64 ![0, 1] bcast_S64x1_S64x64_0_1 (broadcastInDim S64x1 ![0] bcast_S64_S64x1_0 (maximumf (Host.scatterAdd (F := Ideal) scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))

end Cert.KernelIdeal.Chain

end
-- ==== Proof.Keep.lean ====
/-
  Which buffers each stretch of the kernel's host program, and each launch, leaves alone.

  The program runs in twelve segments: three stretches of host operations, then a launch and a stretch, four more times.
  The contents of the TensorCore's buffers at the boundaries are W0 (the launch memory), W1, …, W12.  A host operation
  writes its own result buffer and nothing else; a launch writes its operand arrays back (the inputs unchanged, the
  output at what the grid points wrote) and nothing else.  So an argument array — which nothing writes — holds its launch
  contents at every boundary, and the three values the first stretches compute from the edge list (the edges' sources,
  targets and normalisations) are still there at each later stretch that reads them.
-/
import proofs.«100298_j9079560864408_1_alg».proof.Proof.Gen.KernelIdeal.Frame
import proofs.«100298_j9079560864408_1_alg».proof.Proof.ChainK
import Idealize.ShloMosaic.Lib.StableHlo.Run

noncomputable section

namespace Cert.KernelIdeal.Keep

open Idealize.ShloMosaic Idealize.ShloMosaic.TcCoe Idealize.SL.Sem Idealize.ShloMosaic.StableHlo
open Cert.KernelIdeal Cert.KernelIdeal.Gen Cert.KernelIdeal.Chain

variable (m : (ℓ : Loc nD τ sig) → Buf (Elt Ideal) ℓ) (ρ : Dev nD → PrngReg)

/-! ## Up to the first launch (boundary 3) -/

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results

theorem W3_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  simp only [hostOps0, hostOps0_1, hostOps0_2]
  after_results

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results

/-- The edges' sources (self loops added), computed by the first stretch from the edge list. -/
theorem W3_v3 (c : Dev nD) : W3 m ρ c (Proc.devRef .tc main_v3) = srcOf (m ((c : Thread nD τ).loc main_arg11)) := by
  show StableHlo.after hostOps0_2 (StableHlo.after hostOps0_1 (StableHlo.after hostOps0 (W0 m ρ c))) (Proc.devRef .tc main_v3) = _
  simp only [hostOps0, hostOps0_1, hostOps0_2]
  after_results
  rfl

/-- The edges' targets. -/
theorem W3_v6 (c : Dev nD) : W3 m ρ c (Proc.devRef .tc main_v6) = dstOf (m ((c : Thread nD τ).loc main_arg11)) := by
  show StableHlo.after hostOps0_2 (StableHlo.after hostOps0_1 (StableHlo.after hostOps0 (W0 m ρ c))) (Proc.devRef .tc main_v6) = _
  simp only [hostOps0, hostOps0_1, hostOps0_2]
  after_results
  rfl

/-! ### The normalisations, stretch by stretch -/

theorem W1_v3 (c : Dev nD) : W1 m ρ c (Proc.devRef .tc main_v3) = srcOf (m ((c : Thread nD τ).loc main_arg11)) := by
  show StableHlo.after hostOps0 (W0 m ρ c) (Proc.devRef .tc main_v3) = _
  simp only [hostOps0]
  after_results
  rfl

theorem W1_v6 (c : Dev nD) : W1 m ρ c (Proc.devRef .tc main_v6) = dstOf (m ((c : Thread nD τ).loc main_arg11)) := by
  show StableHlo.after hostOps0 (W0 m ρ c) (Proc.devRef .tc main_v6) = _
  simp only [hostOps0]
  after_results
  rfl

/-- Where the degree is positive. -/
theorem W1_v12 (c : Dev nD) : W1 m ρ c (Proc.devRef .tc main_v12)
    = cmpf (F := Ideal) .ogt (degOf (m ((c : Thread nD τ).loc main_arg11))) (broadcastInDim S100000 ![] bcast_S_S100000 (constant S_ .f32 0x00000000#32)) := by
  show StableHlo.after hostOps0 (W0 m ρ c) (Proc.devRef .tc main_v12) = _
  simp only [hostOps0]
  after_results
  rfl

/-- The degree to the power -1/2. -/
theorem W1_v13 (c : Dev nD) : W1 m ρ c (Proc.devRef .tc main_v13) = Host.rsqrt (F := Ideal) (degOf (m ((c : Thread nD τ).loc main_arg11))) := by
  show StableHlo.after hostOps0 (W0 m ρ c) (Proc.devRef .tc main_v13) = _
  simp only [hostOps0]
  after_results
  rfl

theorem W1_cst2 (c : Dev nD) : W1 m ρ c (Proc.devRef .tc main_cst_2) = constant (F := Ideal) S_ .f32 0x00000000#32 := by
  show StableHlo.after hostOps0 (W0 m ρ c) (Proc.devRef .tc main_cst_2) = _
  simp only [hostOps0]
  after_results

/-- The call of the outlined selection, from any contents: it selects between its second operand and the spread constant. -/
theorem where_step (W : Valuation τ sig (Elt Ideal)) :
    StableHlo.after hostOps0_1 W (Proc.devRef .tc main_v14)
      = select (W (Proc.devRef .tc main_v12)) (W (Proc.devRef .tc main_v13))
          (broadcastInDim S100000 ![] bcast_S_S100000 (id (W (Proc.devRef .tc main_cst_2)))) := by
  simp only [hostOps0_1]
  after_results
  rfl

theorem W2_v14 (c : Dev nD) : W2 m ρ c (Proc.devRef .tc main_v14) = dinvOf (m ((c : Thread nD τ).loc main_arg11)) := by
  refine (where_step (W1 m ρ c)).trans ?_
  rw [W1_v12, W1_v13, W1_cst2]
  rfl

theorem keep01_v3 (W : Valuation τ sig (Elt Ideal)) :
    StableHlo.after hostOps0_1 W (Proc.devRef .tc main_v3) = W (Proc.devRef .tc main_v3) := by
  simp only [hostOps0_1]
  after_results

theorem keep01_v6 (W : Valuation τ sig (Elt Ideal)) :
    StableHlo.after hostOps0_1 W (Proc.devRef .tc main_v6) = W (Proc.devRef .tc main_v6) := by
  simp only [hostOps0_1]
  after_results

theorem W2_v3 (c : Dev nD) : W2 m ρ c (Proc.devRef .tc main_v3) = srcOf (m ((c : Thread nD τ).loc main_arg11)) :=
  (keep01_v3 (W1 m ρ c)).trans (W1_v3 m ρ c)

theorem W2_v6 (c : Dev nD) : W2 m ρ c (Proc.devRef .tc main_v6) = dstOf (m ((c : Thread nD τ).loc main_arg11)) :=
  (keep01_v6 (W1 m ρ c)).trans (W1_v6 m ρ c)

set_option maxRecDepth 8192 in
set_option maxHeartbeats 4000000 in
/-- The third stretch, from any contents: the product of the two gathers. -/
theorem norm_step (W : Valuation τ sig (Elt Ideal)) :
    StableHlo.after hostOps0_2 W (Proc.devRef .tc main_v29)
      = (mulf (F := Ideal) (φ := .f32) (Host.gather gather_S100000_S1350000x1_S1350000_n_0_n_n_0_1_1 (W (Proc.devRef .tc main_v14) : FVec Ideal S100000 .f32)
            (broadcastInDim S1350000x1 ![0] bcast_S1350000_S1350000x1_0 (wrap (W (Proc.devRef .tc main_v3)))))
          (Host.gather gather_S100000_S1350000x1_S1350000_n_0_n_n_0_1_1 (W (Proc.devRef .tc main_v14) : FVec Ideal S100000 .f32)
            (broadcastInDim S1350000x1 ![0] bcast_S1350000_S1350000x1_0 (wrap (W (Proc.devRef .tc main_v6))))) : FVec Ideal S1350000 .f32) := by
  simp only [hostOps0_2]
  after_results_simp
  rfl

/-- The edges' normalisations. -/
theorem W3_v29 (c : Dev nD) : W3 m ρ c (Proc.devRef .tc main_v29) = normOf (m ((c : Thread nD τ).loc main_arg11)) := by
  refine (norm_step (W2 m ρ c)).trans ?_
  rw [W2_v14, W2_v3, W2_v6]
  rfl

/-! ## Step by step: a launch leaves every buffer but its operand arrays; a stretch every buffer but its results -/

theorem W4_arg2 (c : Dev nD) : W4 m ρ c (Proc.devRef .tc main_arg2) = W3 m ρ c (Proc.devRef .tc main_arg2) :=
  W4_of_ne m ρ c main_arg2 (by decide)
theorem W4_arg3 (c : Dev nD) : W4 m ρ c (Proc.devRef .tc main_arg3) = W3 m ρ c (Proc.devRef .tc main_arg3) :=
  W4_of_ne m ρ c main_arg3 (by decide)
theorem W4_arg4 (c : Dev nD) : W4 m ρ c (Proc.devRef .tc main_arg4) = W3 m ρ c (Proc.devRef .tc main_arg4) :=
  W4_of_ne m ρ c main_arg4 (by decide)
theorem W4_arg5 (c : Dev nD) : W4 m ρ c (Proc.devRef .tc main_arg5) = W3 m ρ c (Proc.devRef .tc main_arg5) :=
  W4_of_ne m ρ c main_arg5 (by decide)
theorem W4_v3 (c : Dev nD) : W4 m ρ c (Proc.devRef .tc main_v3) = W3 m ρ c (Proc.devRef .tc main_v3) :=
  W4_of_ne m ρ c main_v3 (by decide)
theorem W4_v6 (c : Dev nD) : W4 m ρ c (Proc.devRef .tc main_v6) = W3 m ρ c (Proc.devRef .tc main_v6) :=
  W4_of_ne m ρ c main_v6 (by decide)
theorem W4_v29 (c : Dev nD) : W4 m ρ c (Proc.devRef .tc main_v29) = W3 m ρ c (Proc.devRef .tc main_v29) :=
  W4_of_ne m ρ c main_v29 (by decide)
theorem W5_arg3 (c : Dev nD) : W5 m ρ c (Proc.devRef .tc main_arg3) = W4 m ρ c (Proc.devRef .tc main_arg3) := by
  show StableHlo.after hostOps1 (W4 m ρ c) (Proc.devRef .tc main_arg3) = _
  simp only [hostOps1]
  after_results
theorem W5_arg4 (c : Dev nD) : W5 m ρ c (Proc.devRef .tc main_arg4) = W4 m ρ c (Proc.devRef .tc main_arg4) := by
  show StableHlo.after hostOps1 (W4 m ρ c) (Proc.devRef .tc main_arg4) = _
  simp only [hostOps1]
  after_results
theorem W5_arg5 (c : Dev nD) : W5 m ρ c (Proc.devRef .tc main_arg5) = W4 m ρ c (Proc.devRef .tc main_arg5) := by
  show StableHlo.after hostOps1 (W4 m ρ c) (Proc.devRef .tc main_arg5) = _
  simp only [hostOps1]
  after_results
theorem W5_v3 (c : Dev nD) : W5 m ρ c (Proc.devRef .tc main_v3) = W4 m ρ c (Proc.devRef .tc main_v3) := by
  show StableHlo.after hostOps1 (W4 m ρ c) (Proc.devRef .tc main_v3) = _
  simp only [hostOps1]
  after_results
theorem W5_v6 (c : Dev nD) : W5 m ρ c (Proc.devRef .tc main_v6) = W4 m ρ c (Proc.devRef .tc main_v6) := by
  show StableHlo.after hostOps1 (W4 m ρ c) (Proc.devRef .tc main_v6) = _
  simp only [hostOps1]
  after_results
theorem W5_v29 (c : Dev nD) : W5 m ρ c (Proc.devRef .tc main_v29) = W4 m ρ c (Proc.devRef .tc main_v29) := by
  show StableHlo.after hostOps1 (W4 m ρ c) (Proc.devRef .tc main_v29) = _
  simp only [hostOps1]
  after_results
theorem W6_arg4 (c : Dev nD) : W6 m ρ c (Proc.devRef .tc main_arg4) = W5 m ρ c (Proc.devRef .tc main_arg4) :=
  W6_of_ne m ρ c main_arg4 (by decide)
theorem W6_arg5 (c : Dev nD) : W6 m ρ c (Proc.devRef .tc main_arg5) = W5 m ρ c (Proc.devRef .tc main_arg5) :=
  W6_of_ne m ρ c main_arg5 (by decide)
theorem W6_v3 (c : Dev nD) : W6 m ρ c (Proc.devRef .tc main_v3) = W5 m ρ c (Proc.devRef .tc main_v3) :=
  W6_of_ne m ρ c main_v3 (by decide)
theorem W6_v6 (c : Dev nD) : W6 m ρ c (Proc.devRef .tc main_v6) = W5 m ρ c (Proc.devRef .tc main_v6) :=
  W6_of_ne m ρ c main_v6 (by decide)
theorem W6_v29 (c : Dev nD) : W6 m ρ c (Proc.devRef .tc main_v29) = W5 m ρ c (Proc.devRef .tc main_v29) :=
  W6_of_ne m ρ c main_v29 (by decide)
theorem W7_arg5 (c : Dev nD) : W7 m ρ c (Proc.devRef .tc main_arg5) = W6 m ρ c (Proc.devRef .tc main_arg5) := by
  show StableHlo.after hostOps2 (W6 m ρ c) (Proc.devRef .tc main_arg5) = _
  simp only [hostOps2]
  after_results
theorem W7_v3 (c : Dev nD) : W7 m ρ c (Proc.devRef .tc main_v3) = W6 m ρ c (Proc.devRef .tc main_v3) := by
  show StableHlo.after hostOps2 (W6 m ρ c) (Proc.devRef .tc main_v3) = _
  simp only [hostOps2]
  after_results
theorem W7_v6 (c : Dev nD) : W7 m ρ c (Proc.devRef .tc main_v6) = W6 m ρ c (Proc.devRef .tc main_v6) := by
  show StableHlo.after hostOps2 (W6 m ρ c) (Proc.devRef .tc main_v6) = _
  simp only [hostOps2]
  after_results
theorem W7_v29 (c : Dev nD) : W7 m ρ c (Proc.devRef .tc main_v29) = W6 m ρ c (Proc.devRef .tc main_v29) := by
  show StableHlo.after hostOps2 (W6 m ρ c) (Proc.devRef .tc main_v29) = _
  simp only [hostOps2]
  after_results
theorem W8_v3 (c : Dev nD) : W8 m ρ c (Proc.devRef .tc main_v3) = W7 m ρ c (Proc.devRef .tc main_v3) :=
  W8_of_ne m ρ c main_v3 (by decide)
theorem W8_v6 (c : Dev nD) : W8 m ρ c (Proc.devRef .tc main_v6) = W7 m ρ c (Proc.devRef .tc main_v6) :=
  W8_of_ne m ρ c main_v6 (by decide)
theorem W8_v29 (c : Dev nD) : W8 m ρ c (Proc.devRef .tc main_v29) = W7 m ρ c (Proc.devRef .tc main_v29) :=
  W8_of_ne m ρ c main_v29 (by decide)

/-! ## From the end backwards, for the arguments read late -/

theorem W12_arg6 (c : Dev nD) : W12 m ρ c (Proc.devRef .tc main_arg6) = W11 m ρ c (Proc.devRef .tc main_arg6) :=
  W12_of_ne m ρ c main_arg6 (by decide)
theorem W12_arg7 (c : Dev nD) : W12 m ρ c (Proc.devRef .tc main_arg7) = W11 m ρ c (Proc.devRef .tc main_arg7) :=
  (W12_arr m ρ c 1).trans (((dat4 (V11 m ρ) c).arrAt_in 1 rfl _).trans (A_eq4 (V11 m ρ) c 1))
theorem W12_arg8 (c : Dev nD) : W12 m ρ c (Proc.devRef .tc main_arg8) = W11 m ρ c (Proc.devRef .tc main_arg8) :=
  W12_of_ne m ρ c main_arg8 (by decide)
theorem W12_arg9 (c : Dev nD) : W12 m ρ c (Proc.devRef .tc main_arg9) = W11 m ρ c (Proc.devRef .tc main_arg9) :=
  (W12_arr m ρ c 3).trans (((dat4 (V11 m ρ) c).arrAt_in 3 rfl _).trans (A_eq4 (V11 m ρ) c 3))
theorem W12_arg10 (c : Dev nD) : W12 m ρ c (Proc.devRef .tc main_arg10) = W11 m ρ c (Proc.devRef .tc main_arg10) :=
  W12_of_ne m ρ c main_arg10 (by decide)
theorem W12_arg12 (c : Dev nD) : W12 m ρ c (Proc.devRef .tc main_arg12) = W11 m ρ c (Proc.devRef .tc main_arg12) :=
  W12_of_ne m ρ c main_arg12 (by decide)
theorem W11_arg6 (c : Dev nD) : W11 m ρ c (Proc.devRef .tc main_arg6) = W10 m ρ c (Proc.devRef .tc main_arg6) := by
  show StableHlo.after hostOps4 (W10 m ρ c) (Proc.devRef .tc main_arg6) = _
  simp only [hostOps4]
  after_results
theorem W11_arg8 (c : Dev nD) : W11 m ρ c (Proc.devRef .tc main_arg8) = W10 m ρ c (Proc.devRef .tc main_arg8) := by
  show StableHlo.after hostOps4 (W10 m ρ c) (Proc.devRef .tc main_arg8) = _
  simp only [hostOps4]
  after_results
theorem W11_arg10 (c : Dev nD) : W11 m ρ c (Proc.devRef .tc main_arg10) = W10 m ρ c (Proc.devRef .tc main_arg10) := by
  show StableHlo.after hostOps4 (W10 m ρ c) (Proc.devRef .tc main_arg10) = _
  simp only [hostOps4]
  after_results
theorem W11_arg12 (c : Dev nD) : W11 m ρ c (Proc.devRef .tc main_arg12) = W10 m ρ c (Proc.devRef .tc main_arg12) := by
  show StableHlo.after hostOps4 (W10 m ρ c) (Proc.devRef .tc main_arg12) = _
  simp only [hostOps4]
  after_results
theorem W10_arg6 (c : Dev nD) : W10 m ρ c (Proc.devRef .tc main_arg6) = W9 m ρ c (Proc.devRef .tc main_arg6) :=
  W10_of_ne m ρ c main_arg6 (by decide)
theorem W9_arg6 (c : Dev nD) : W9 m ρ c (Proc.devRef .tc main_arg6) = W8 m ρ c (Proc.devRef .tc main_arg6) := by
  show StableHlo.after hostOps3 (W8 m ρ c) (Proc.devRef .tc main_arg6) = _
  simp only [hostOps3]
  after_results

/-! ## What each reader finds -/

theorem at4_arg2 (c : Dev nD) : W4 m ρ c (Proc.devRef .tc main_arg2) = m ((c : Thread nD τ).loc main_arg2) :=
  (W4_arg2 m ρ c).trans (W3_arg2 m ρ c)
theorem at4_v3 (c : Dev nD) : W4 m ρ c (Proc.devRef .tc main_v3) = srcOf (m ((c : Thread nD τ).loc main_arg11)) :=
  (W4_v3 m ρ c).trans (W3_v3 m ρ c)
theorem at4_v6 (c : Dev nD) : W4 m ρ c (Proc.devRef .tc main_v6) = dstOf (m ((c : Thread nD τ).loc main_arg11)) :=
  (W4_v6 m ρ c).trans (W3_v6 m ρ c)
theorem at4_v29 (c : Dev nD) : W4 m ρ c (Proc.devRef .tc main_v29) = normOf (m ((c : Thread nD τ).loc main_arg11)) :=
  (W4_v29 m ρ c).trans (W3_v29 m ρ c)
theorem at5_arg3 (c : Dev nD) : W5 m ρ c (Proc.devRef .tc main_arg3) = m ((c : Thread nD τ).loc main_arg3) :=
  (W5_arg3 m ρ c).trans ((W4_arg3 m ρ c).trans (W3_arg3 m ρ c))
theorem at6_arg4 (c : Dev nD) : W6 m ρ c (Proc.devRef .tc main_arg4) = m ((c : Thread nD τ).loc main_arg4) :=
  (W6_arg4 m ρ c).trans ((W5_arg4 m ρ c).trans ((W4_arg4 m ρ c).trans (W3_arg4 m ρ c)))
theorem at6_v3 (c : Dev nD) : W6 m ρ c (Proc.devRef .tc main_v3) = srcOf (m ((c : Thread nD τ).loc main_arg11)) :=
  (W6_v3 m ρ c).trans ((W5_v3 m ρ c).trans (at4_v3 m ρ c))
theorem at6_v6 (c : Dev nD) : W6 m ρ c (Proc.devRef .tc main_v6) = dstOf (m ((c : Thread nD τ).loc main_arg11)) :=
  (W6_v6 m ρ c).trans ((W5_v6 m ρ c).trans (at4_v6 m ρ c))
theorem at6_v29 (c : Dev nD) : W6 m ρ c (Proc.devRef .tc main_v29) = normOf (m ((c : Thread nD τ).loc main_arg11)) :=
  (W6_v29 m ρ c).trans ((W5_v29 m ρ c).trans (at4_v29 m ρ c))
theorem at7_arg5 (c : Dev nD) : W7 m ρ c (Proc.devRef .tc main_arg5) = m ((c : Thread nD τ).loc main_arg5) :=
  (W7_arg5 m ρ c).trans ((W6_arg5 m ρ c).trans ((W5_arg5 m ρ c).trans ((W4_arg5 m ρ c).trans (W3_arg5 m ρ c))))
theorem at8_v3 (c : Dev nD) : W8 m ρ c (Proc.devRef .tc main_v3) = srcOf (m ((c : Thread nD τ).loc main_arg11)) :=
  (W8_v3 m ρ c).trans ((W7_v3 m ρ c).trans (at6_v3 m ρ c))
theorem at8_v6 (c : Dev nD) : W8 m ρ c (Proc.devRef .tc main_v6) = dstOf (m ((c : Thread nD τ).loc main_arg11)) :=
  (W8_v6 m ρ c).trans ((W7_v6 m ρ c).trans (at6_v6 m ρ c))
theorem at8_v29 (c : Dev nD) : W8 m ρ c (Proc.devRef .tc main_v29) = normOf (m ((c : Thread nD τ).loc main_arg11)) :=
  (W8_v29 m ρ c).trans ((W7_v29 m ρ c).trans (at6_v29 m ρ c))
theorem at11_arg7 (c : Dev nD) : W11 m ρ c (Proc.devRef .tc main_arg7) = m ((c : Thread nD τ).loc main_arg7) :=
  (W12_arg7 m ρ c).symm.trans (W12_main_arg7 m ρ c)
theorem at11_arg9 (c : Dev nD) : W11 m ρ c (Proc.devRef .tc main_arg9) = m ((c : Thread nD τ).loc main_arg9) :=
  (W12_arg9 m ρ c).symm.trans (W12_main_arg9 m ρ c)
theorem at10_arg8 (c : Dev nD) : W10 m ρ c (Proc.devRef .tc main_arg8) = m ((c : Thread nD τ).loc main_arg8) :=
  (W11_arg8 m ρ c).symm.trans ((W12_arg8 m ρ c).symm.trans (W12_main_arg8 m ρ c))
theorem at10_arg10 (c : Dev nD) : W10 m ρ c (Proc.devRef .tc main_arg10) = m ((c : Thread nD τ).loc main_arg10) :=
  (W11_arg10 m ρ c).symm.trans ((W12_arg10 m ρ c).symm.trans (W12_main_arg10 m ρ c))
theorem at10_arg12 (c : Dev nD) : W10 m ρ c (Proc.devRef .tc main_arg12) = m ((c : Thread nD τ).loc main_arg12) :=
  (W11_arg12 m ρ c).symm.trans ((W12_arg12 m ρ c).symm.trans (W12_main_arg12 m ρ c))
theorem at8_arg6 (c : Dev nD) : W8 m ρ c (Proc.devRef .tc main_arg6) = m ((c : Thread nD τ).loc main_arg6) :=
  (W9_arg6 m ρ c).symm.trans ((W10_arg6 m ρ c).symm.trans ((W11_arg6 m ρ c).symm.trans ((W12_arg6 m ρ c).symm.trans (W12_main_arg6 m ρ c))))

end Cert.KernelIdeal.Keep

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowsProduct.lean ====
/-
  A product of an M×K array with a K×N matrix as ONE function of the two arrays: entry (p, q) is row p of the left
  array times the matrix, at column q, and depends on no other row.  The host's dot_general of the plain dimension
  numbers is that function.  So when the rows are cut into consecutive blocks and each block is multiplied by the whole
  matrix, the blocks laid end to end are the whole product.
-/
import Idealize.ShloMosaic.Lib.ValueIdx
import Idealize.ShloMosaic.PureOps.Ideal.Laws
import proofs.«100298_j9079560864408_1_alg».proof.Proof.LibRowDot

noncomputable section

open scoped BigOperators

namespace Cert.RowsProduct

open Idealize.ShloMosaic Idealize.ShloMosaic.ValueIdx Cert.RowDot

/-- The whole product: entry i is (row (i 0) of x) · w at column (i 1). -/
def rowsTimes {M K N : Nat} (x : (⟨2, ![M, K]⟩ : Shape).Idx → EReal) (w : (⟨2, ![K, N]⟩ : Shape).Idx → EReal) :
    (⟨2, ![M, N]⟩ : Shape).Idx → EReal :=
  fun i => rowDot (rowOf x (i 0)) w (i 1)

/-- The host's product of the plain dimension numbers is the whole product. -/
theorem hostDot_eq_rowsTimes {M K N : Nat} (prec : Option ContractPrecision)
    (x : FVec Ideal (⟨2, ![M, K]⟩ : Shape) .f32) (w : FVec Ideal (⟨2, ![K, N]⟩ : Shape) .f32) :
    Host.dotGeneral (F := Ideal) (DotDims.plain M K N) prec x w = rowsTimes x w :=
  funext fun j => dotGeneral_plain_apply prec .single x w j

/-- The vector unit's product into zero of a block of rows, after the changes of float format that keep every value:
    entry j is row (j 0) of the block times the matrix at column (j 1). -/
theorem blockDot_apply {M K N : Nat} {ψ₁ ψ₂ : FTy} (prec : Option ContractPrecision) (h₁ : ψ₁.bits < FTy.f32.bits) (h₂ : ψ₂.bits < FTy.f32.bits)
    (a : FVec Ideal (⟨2, ![M, K]⟩ : Shape) .f32) (w : FVec Ideal (⟨2, ![K, N]⟩ : Shape) .f32) (j : (⟨2, ![M, N]⟩ : Shape).Idx) :
    matmul (DotDims.plain M K N) prec (truncf ψ₁ a h₁) (truncf ψ₂ w h₂)
        (constant (F := Ideal) ⟨2, ![M, N]⟩ .f32 0x00000000#32) j
      = rowDot (rowOf a (j 0)) w (j 1) :=
  matmul_plain_zero_apply prec (φ₁ := ψ₁) (φ₂ := ψ₂) a w j

end Cert.RowsProduct

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.Payloads.lean ====
/-
  The five kernel bodies as functions of their whole input blocks, at the exact (extended-real) values.

  Every body stores one value, and every change of float format in it keeps each number, so the stored block is:
    body 0:     the block of rows times the weight matrix;
    bodies 1,2: the block of rows plus the bias row, clamped below at zero, times the weight matrix;
    body 3:     the block of rows plus the bias row, clamped below at zero;
    body 4:     two dense layers, the first followed by the clamp:  ((P·W1 + b1)⁺ · W2) + b2.
  The products are the row-by-row product `rowsTimes`, the bias addition is `addRow`, the clamp `clampBelow`.
-/
import proofs.«100298_j9079560864408_1_alg».proof.Proof.Gen.KernelIdeal.Skeleton
import proofs.«100298_j9079560864408_1_alg».proof.Proof.LibRowsProduct
import proofs.«100298_j9079560864408_1_alg».proof.Proof.LibRowBias
import Idealize.ShloMosaic.Lib.Pipeline.Value

noncomputable section

namespace Cert.KernelIdeal.Bodies

open Idealize.ShloMosaic Idealize.ShloMosaic.ValueIdx Cert.KernelIdeal Cert.KernelIdeal.Gen
open Cert.RowDot Cert.RowsProduct Cert.RowBias

/-- The number the all-zero f32 word denotes. -/
abbrev z0 : EReal := Ideal.ofBits .f32 0x00000000#32

/-- A 1×N row spread over the M rows and added: A plus the row on every row. -/
theorem addf_spreadRow {M N : Nat} (A : FVec Ideal (⟨2, ![M, N]⟩ : Shape) .f32) (b : FVec Ideal (⟨2, ![1, N]⟩ : Shape) .f32)
    (hB : (⟨2, ![1, N]⟩ : Shape).Broadcasts ⟨2, ![M, N]⟩) :
    addf A (broadcastTo ⟨2, ![M, N]⟩ b hB) = addRow A b := by
  funext j
  show FloatOps.addf (A j) (broadcastTo ⟨2, ![M, N]⟩ b hB j) = A j + b (ix2 0 (j 1))
  rw [spreadRow_apply]
  rfl

/-- A block of 10000 rows of 64 numbers times a 64×64 matrix, on the vector unit. -/
theorem mmA (h1 h2 : FTy.bf16.bits < FTy.f32.bits) (a : FVec Ideal S10000x64 .f32) (w : FVec Ideal S64x64 .f32) :
    matmul dot_S10000x64_S64x64_S10000x64_1_0_0_1_n_n none (truncf .bf16 a h1) (truncf .bf16 w h2)
      (constant (F := Ideal) S10000x64 .f32 0x00000000#32) = rowsTimes a w :=
  funext fun j => blockDot_apply none h1 h2 a w j

/-- 64 rows of 64 numbers times a 64×32 matrix, on the vector unit. -/
theorem mmB (h1 h2 : FTy.bf16.bits < FTy.f32.bits) (a : FVec Ideal S64x64 .f32) (w : FVec Ideal S64x32 .f32) :
    matmul dot_S64x64_S64x32_S64x32_1_0_0_1_n_n none (truncf .bf16 a h1) (truncf .bf16 w h2)
      (constant (F := Ideal) S64x32 .f32 0x00000000#32) = rowsTimes a w :=
  funext fun j => blockDot_apply none h1 h2 a w j

/-- 64 rows of 32 numbers times a 32×2 matrix, on the vector unit. -/
theorem mmC (h1 h2 : FTy.bf16.bits < FTy.f32.bits) (a : FVec Ideal S64x32 .f32) (w : FVec Ideal S32x2 .f32) :
    matmul dot_S64x32_S32x2_S64x2_1_0_0_1_n_n none (truncf .bf16 a h1) (truncf .bf16 w h2)
      (constant (F := Ideal) S64x2 .f32 0x00000000#32) = rowsTimes a w :=
  funext fun j => blockDot_apply none h1 h2 a w j

/-- Body 0 stores the block of rows times the matrix. -/
theorem pay0_eq (x : Vec Ideal S10000x64 .f32) (w : Vec Ideal S64x64 .f32) : k0_pay1 x w = rowsTimes x w := by
  unfold k0_pay1
  exact mmA _ _ x w

/-- Bodies 1 and 2 store (rows + bias)⁺ times the matrix. -/
theorem pay1_eq (a : Vec Ideal S10000x64 .f32) (b : Vec Ideal S1x64 .f32) (w : Vec Ideal S64x64 .f32) :
    k1_pay1 a b w = rowsTimes (clampBelow z0 (addRow a b)) w := by
  unfold k1_pay1
  show matmul dot_S10000x64_S64x64_S10000x64_1_0_0_1_n_n none
      (truncf .bf16 (maximumf (addf (shapeCast S10000x64 a shapeCasts_S10000x64_S10000x64)
            (broadcastTo S10000x64 (shapeCast S1x64 b shapeCasts_S1x64_S1x64) broadcasts_S1x64_S10000x64))
          (broadcast S10000x64 (Scalar.ofBits (F := Ideal) .f32 0x00000000#32))) bitsLt_bf16_f32)
      (truncf .bf16 w bitsLt_bf16_f32) (constant (F := Ideal) S10000x64 .f32 0x00000000#32) = _
  rw [mmA, addf_spread_eq, maximumf_splat_eq]

theorem pay2_eq (a : Vec Ideal S10000x64 .f32) (b : Vec Ideal S1x64 .f32) (w : Vec Ideal S64x64 .f32) :
    k2_pay1 a b w = rowsTimes (clampBelow z0 (addRow a b)) w := by
  unfold k2_pay1
  show matmul dot_S10000x64_S64x64_S10000x64_1_0_0_1_n_n none
      (truncf .bf16 (maximumf (addf (shapeCast S10000x64 a shapeCasts_S10000x64_S10000x64)
            (broadcastTo S10000x64 (shapeCast S1x64 b shapeCasts_S1x64_S1x64) broadcasts_S1x64_S10000x64))
          (broadcast S10000x64 (Scalar.ofBits (F := Ideal) .f32 0x00000000#32))) bitsLt_bf16_f32)
      (truncf .bf16 w bitsLt_bf16_f32) (constant (F := Ideal) S10000x64 .f32 0x00000000#32) = _
  rw [mmA, addf_spread_eq, maximumf_splat_eq]

/-- Body 3 stores (rows + bias)⁺. -/
theorem pay3_eq (a : Vec Ideal S10000x64 .f32) (b : Vec Ideal S1x64 .f32) :
    k3_pay1 a b = clampBelow z0 (addRow a b) := by
  unfold k3_pay1
  show maximumf (addf (shapeCast S10000x64 a shapeCasts_S10000x64_S10000x64)
        (broadcastTo S10000x64 (shapeCast S1x64 b shapeCasts_S1x64_S1x64) broadcasts_S1x64_S10000x64))
      (broadcast S10000x64 (Scalar.ofBits (F := Ideal) .f32 0x00000000#32)) = _
  rw [addf_spread_eq, maximumf_splat_eq]

/-- Body 4 stores ((P·W1 + b1)⁺ · W2) + b2. -/
theorem pay4_eq (p : Vec Ideal S64x64 .f32) (w1 : Vec Ideal S64x32 .f32) (b1 : Vec Ideal S1x32 .f32)
    (w2 : Vec Ideal S32x2 .f32) (b2 : Vec Ideal S1x2 .f32) :
    k4_pay1 p w1 b1 w2 b2 = addRow (rowsTimes (clampBelow z0 (addRow (rowsTimes p w1) b1)) w2) b2 := by
  unfold k4_pay1
  show addf (matmul dot_S64x32_S32x2_S64x2_1_0_0_1_n_n none
        (truncf .bf16 (maximumf (addf (matmul dot_S64x64_S64x32_S64x32_1_0_0_1_n_n none
                (truncf .bf16 (shapeCast S64x64 p shapeCasts_S64x64_S64x64) bitsLt_bf16_f32) (truncf .bf16 w1 bitsLt_bf16_f32)
                (constant (F := Ideal) S64x32 .f32 0x00000000#32))
              (broadcastTo S64x32 (shapeCast S1x32 b1 shapeCasts_S1x32_S1x32) broadcasts_S1x32_S64x32))
            (broadcast S64x32 (Scalar.ofBits (F := Ideal) .f32 0x00000000#32))) bitsLt_bf16_f32)
        (truncf .bf16 w2 bitsLt_bf16_f32) (constant (F := Ideal) S64x2 .f32 0x00000000#32))
      (broadcastTo S64x2 (shapeCast S1x2 b2 shapeCasts_S1x2_S1x2) broadcasts_S1x2_S64x2) = _
  simp only [shapeCast_self]
  rw [mmB, addf_spreadRow, maximumf_splat_eq, mmC, addf_spreadRow]

end Cert.KernelIdeal.Bodies

end
-- ==== Proof.LibBlockRows.lean ====
/-
  Reading the row-by-row operations at an entry of a block and at the matching entry of the whole array.

  Entry (p, q) of "rows times a matrix" depends only on row p of the left array and column q of the matrix; entry
  (p, q) of "array plus a row" only on the array's entry (p, q) and the row's entry q; a clamp only on the entry.  So when
  a block of rows agrees with the whole array along a row, the operation on the block and on the whole array agree at the
  corresponding entries.
-/
import Idealize.ShloMosaic.Lib.ValueIdx
import proofs.«100298_j9079560864408_1_alg».proof.Proof.LibRowsProduct
import proofs.«100298_j9079560864408_1_alg».proof.Proof.LibRowBias

noncomputable section

open scoped BigOperators

namespace Cert.BlockRows

open Idealize.ShloMosaic Idealize.ShloMosaic.ValueIdx Cert.RowDot Cert.RowsProduct Cert.RowBias

/-- If row (j 0) of the block is row (i 0) of the array, and column (j 1) of the block's matrix is column (i 1) of the
    matrix, the two products agree at j and i. -/
theorem rowsTimes_at {m M K N N' : Nat} (xb : (⟨2, ![m, K]⟩ : Shape).Idx → EReal) (wb : (⟨2, ![K, N]⟩ : Shape).Idx → EReal)
    (X : (⟨2, ![M, K]⟩ : Shape).Idx → EReal) (W : (⟨2, ![K, N']⟩ : Shape).Idx → EReal)
    (j : (⟨2, ![m, N]⟩ : Shape).Idx) (i : (⟨2, ![M, N']⟩ : Shape).Idx)
    (hx : ∀ k : Fin K, xb (ix2 (j 0) k) = X (ix2 (i 0) k)) (hw : ∀ k : Fin K, wb (ix2 k (j 1)) = W (ix2 k (i 1))) :
    rowsTimes xb wb j = rowsTimes X W i := by
  show rowDot (rowOf xb (j 0)) wb (j 1) = rowDot (rowOf X (i 0)) W (i 1)
  unfold rowDot rowOf
  exact Finset.sum_congr rfl fun k _ => by rw [hx k, hw k]

/-- "Array plus a row" at corresponding entries. -/
theorem addRow_at {m M N N' : Nat} (ab : (⟨2, ![m, N]⟩ : Shape).Idx → EReal) (bb : (⟨2, ![1, N]⟩ : Shape).Idx → EReal)
    (A : (⟨2, ![M, N']⟩ : Shape).Idx → EReal) (B : (⟨2, ![1, N']⟩ : Shape).Idx → EReal)
    (j : (⟨2, ![m, N]⟩ : Shape).Idx) (i : (⟨2, ![M, N']⟩ : Shape).Idx)
    (ha : ab j = A i) (hb : bb (ix2 0 (j 1)) = B (ix2 0 (i 1))) : addRow ab bb j = addRow A B i := by
  show ab j + bb (ix2 0 (j 1)) = A i + B (ix2 0 (i 1))
  rw [ha, hb]

/-- A clamp at corresponding entries. -/
theorem clampBelow_at {S S' : Shape} (z : EReal) (Y : S.Idx → EReal) (Y' : S'.Idx → EReal) (j : S.Idx) (i : S'.Idx)
    (h : Y j = Y' i) : clampBelow z Y j = clampBelow z Y' i := by
  show max (Y j) z = max (Y' i) z
  rw [h]

end Cert.BlockRows

end
-- ==== Proof.Region0.lean ====
/-
  The first launch: the node features times the first weight matrix, ten blocks of 10000 rows.

  Point t of the grid reads rows 10000·t … 10000·t + 9999 of the features and the whole 64×64 matrix, and writes
  back that block of rows times the matrix as rows 10000·t … of the result.  Since entry (p, q) of a product depends
  only on row p of the left array, the block written at point t is block t of the ONE array "features times matrix";
  the ten blocks cover the 100000 rows, so the result array after the launch is that product.
-/
import proofs.«100298_j9079560864408_1_alg».proof.Proof.Gen.KernelIdeal.Frame
import proofs.«100298_j9079560864408_1_alg».proof.Proof.Payloads
import proofs.«100298_j9079560864408_1_alg».proof.Proof.LibBlockRows
import Idealize.ShloMosaic.Lib.Pipeline.Value

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.Bodies Cert.RowDot Cert.RowsProduct Cert.RowBias Cert.BlockRows
open Idealize.ShloMosaic.Pipeline (Dat)

-- the region's entry contents: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 2 move along the rows with the point, window 1 stays. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0)

/-- Every block of rows is some point's. -/
theorem onto0 : ∀ q : Fin 10, ∃ t : Fin cfg0.N, win0_2.index t = ![q.val, 0] :=
  (by decide +kernel : ∀ q : Fin 10, ∃ t : Fin grid0.N, win0_2.index t = ![q.val, 0])

/-- What point t writes back is block t of the whole product. -/
theorem flushed0 (c : Dev nD) (t : Fin cfg0.N) :
    (dat0 V c).flushed 2 t
      = ((cfg0.win 2).blk t).view.read (Elt Ideal) (rowsTimes (V c main_arg0) (V c main_arg1)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  rw [pay0_eq]
  obtain ⟨e0, e1, e2, e3, e4⟩ := idx0 t
  funext j
  show rowsTimes (iblk0 V c 0 t) (iblk0 V c 1 t) j
    = rowsTimes (V c main_arg0) (V c main_arg1) (((cfg0.win 2).blk t).view.emb j)
  refine rowsTimes_at (iblk0 V c 0 t) (iblk0 V c 1 t) (V c main_arg0) (V c main_arg1) j
    (((cfg0.win 2).blk t).view.emb j) (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  · show V c main_arg1 (((cfg0.win 1).blk t).view.emb (ix2 k (j 1)))
      = V c main_arg1 (ix2 k ((((cfg0.win 2).blk t).view.emb j) 1))
    refine congrArg (V c main_arg1) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row r is in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the launch: the features times the matrix. -/
theorem final0 (c : Dev nD) :
    (dat0 V c).arrAt 2 cfg0.N = rowsTimes (V c main_arg0) (V c main_arg1) :=
  (dat0 V c).arrAt_eq_of_cover 2 (rowsTimes (V c main_arg0) (V c main_arg1)) (fun t _ => flushed0 V c t) cover0

end Cert.KernelIdeal.Region0

end
-- ==== Proof.Region1.lean ====
/-
  A fused launch: the aggregated rows plus the bias, clamped below at zero, times the next weight matrix — ten
  blocks of 10000 rows.

  Point t reads rows 10000·t … of the aggregated array, the whole 1×64 bias row and the whole 64×64 matrix, and writes
  back ((rows + bias)⁺ · matrix) as rows 10000·t … of the result.  Entry (p, q) depends only on row p, so the block
  written at point t is block t of the ONE array ((A + bias)⁺ · W); the ten blocks cover the 100000 rows.
-/
import proofs.«100298_j9079560864408_1_alg».proof.Proof.Gen.KernelIdeal.Frame
import proofs.«100298_j9079560864408_1_alg».proof.Proof.Payloads
import proofs.«100298_j9079560864408_1_alg».proof.Proof.LibBlockRows
import Idealize.ShloMosaic.Lib.Pipeline.Value

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Bodies Cert.RowDot Cert.RowsProduct Cert.RowBias Cert.BlockRows
open Idealize.ShloMosaic.Pipeline (Dat)

-- the region's entry contents: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 3 move along the rows with the point, windows 1 and 2 stay. -/
theorem idx1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0 :=
  (by decide +kernel : ∀ t : Fin grid1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0)

/-- Every block of rows is some point's. -/
theorem onto1 : ∀ q : Fin 10, ∃ t : Fin cfg1.N, win1_3.index t = ![q.val, 0] :=
  (by decide +kernel : ∀ q : Fin 10, ∃ t : Fin grid1.N, win1_3.index t = ![q.val, 0])

/-- What point t writes back is block t of ((A + bias)⁺ · W). -/
theorem flushed1 (c : Dev nD) (t : Fin cfg1.N) :
    (dat1 V c).flushed 3 t
      = ((cfg1.win 3).blk t).view.read (Elt Ideal)
          (rowsTimes (clampBelow z0 (addRow (V c main_v43) (V c main_v44))) (V c main_arg3)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  rw [pay1_eq]
  obtain ⟨e0, e1, e2, e3, e4, e5, e6⟩ := idx1 t
  funext j
  show rowsTimes (clampBelow z0 (addRow (iblk1 V c 0 t) (iblk1 V c 1 t))) (iblk1 V c 2 t) j
    = rowsTimes (clampBelow z0 (addRow (V c main_v43) (V c main_v44))) (V c main_arg3) (((cfg1.win 3).blk t).view.emb j)
  refine rowsTimes_at (clampBelow z0 (addRow (iblk1 V c 0 t) (iblk1 V c 1 t))) (iblk1 V c 2 t)
    (clampBelow z0 (addRow (V c main_v43) (V c main_v44))) (V c main_arg3) j
    (((cfg1.win 3).blk t).view.emb j) (fun k => ?_) (fun k => ?_)
  · refine clampBelow_at z0 (addRow (iblk1 V c 0 t) (iblk1 V c 1 t)) (addRow (V c main_v43) (V c main_v44))
      (ix2 (j 0) k) (ix2 ((((cfg1.win 3).blk t).view.emb j) 0) k) ?_
    refine addRow_at (iblk1 V c 0 t) (iblk1 V c 1 t) (V c main_v43) (V c main_v44)
      (ix2 (j 0) k) (ix2 ((((cfg1.win 3).blk t).view.emb j) 0) k) ?_ ?_
    · show V c main_v43 (((cfg1.win 0).blk t).view.emb (ix2 (j 0) k))
        = V c main_v43 (ix2 ((((cfg1.win 3).blk t).view.emb j) 0) k)
      refine congrArg (V c main_v43) (funext fun a => Fin.ext ?_)
      match a with
      | ⟨0, _⟩ => show win1_0.index t (0 : Fin 2) * 10000 + 1 * (j 0).val = win1_3.index t (0 : Fin 2) * 10000 + 1 * (j 0).val; omega
      | ⟨1, _⟩ => show win1_0.index t (1 : Fin 2) * 64 + 1 * k.val = k.val; omega
    · show V c main_v44 (((cfg1.win 1).blk t).view.emb (ix2 (0 : Fin 1) k)) = V c main_v44 (ix2 (0 : Fin 1) k)
      refine congrArg (V c main_v44) (funext fun a => Fin.ext ?_)
      match a with
      | ⟨0, _⟩ => show win1_1.index t (0 : Fin 2) * 1 + 1 * 0 = 0; omega
      | ⟨1, _⟩ => show win1_1.index t (1 : Fin 2) * 64 + 1 * k.val = k.val; omega
  · show V c main_arg3 (((cfg1.win 2).blk t).view.emb (ix2 k (j 1)))
      = V c main_arg3 (ix2 k ((((cfg1.win 3).blk t).view.emb j) 1))
    refine congrArg (V c main_arg3) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega

/-- An index of the result array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v45).slice (win1_3.rect t)).set ↔ _
  rw [View.set_slice_whole, Rect.mem_set_unit]
  exact Iff.rfl

/-- Row r is in the block of point r / 10000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The result array after the launch: ((A + bias)⁺ · W). -/
theorem final1 (c : Dev nD) :
    (dat1 V c).arrAt 3 cfg1.N = rowsTimes (clampBelow z0 (addRow (V c main_v43) (V c main_v44))) (V c main_arg3) :=
  (dat1 V c).arrAt_eq_of_cover 3 (rowsTimes (clampBelow z0 (addRow (V c main_v43) (V c main_v44))) (V c main_arg3))
    (fun t _ => flushed1 V c t) cover1

end Cert.KernelIdeal.Region1

end
-- ==== Proof.Region2.lean ====
/-
  A fused launch: the aggregated rows plus the bias, clamped below at zero, times the next weight matrix — ten
  blocks of 10000 rows.

  Point t reads rows 10000·t … of the aggregated array, the whole 1×64 bias row and the whole 64×64 matrix, and writes
  back ((rows + bias)⁺ · matrix) as rows 10000·t … of the result.  Entry (p, q) depends only on row p, so the block
  written at point t is block t of the ONE array ((A + bias)⁺ · W); the ten blocks cover the 100000 rows.
-/
import proofs.«100298_j9079560864408_1_alg».proof.Proof.Gen.KernelIdeal.Frame
import proofs.«100298_j9079560864408_1_alg».proof.Proof.Payloads
import proofs.«100298_j9079560864408_1_alg».proof.Proof.LibBlockRows
import Idealize.ShloMosaic.Lib.Pipeline.Value

noncomputable section

namespace Cert.KernelIdeal.Region2

open Idealize.ShloMosaic Idealize.ShloMosaic.TcCoe Idealize.ShloMosaic.ValueIdx Idealize.SL.Sem
open Cert.KernelIdeal Cert.KernelIdeal.Gen Cert.KernelIdeal.Bodies Cert.RowDot Cert.RowsProduct Cert.RowBias Cert.BlockRows
open Idealize.ShloMosaic.Pipeline (Dat)

-- the region's entry contents: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 3 move along the rows with the point, windows 1 and 2 stay. -/
theorem idx2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 ∧ win2_3.index t (1 : Fin 2) = 0 :=
  (by decide +kernel : ∀ t : Fin grid2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 ∧ win2_3.index t (1 : Fin 2) = 0)

/-- Every block of rows is some point's. -/
theorem onto2 : ∀ q : Fin 10, ∃ t : Fin cfg2.N, win2_3.index t = ![q.val, 0] :=
  (by decide +kernel : ∀ q : Fin 10, ∃ t : Fin grid2.N, win2_3.index t = ![q.val, 0])

/-- What point t writes back is block t of ((A + bias)⁺ · W). -/
theorem flushed2 (c : Dev nD) (t : Fin cfg2.N) :
    (dat2 V c).flushed 3 t
      = ((cfg2.win 3).blk t).view.read (Elt Ideal)
          (rowsTimes (clampBelow z0 (addRow (V c main_v58) (V c main_v59))) (V c main_arg5)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  rw [pay2_eq]
  obtain ⟨e0, e1, e2, e3, e4, e5, e6⟩ := idx2 t
  funext j
  show rowsTimes (clampBelow z0 (addRow (iblk2 V c 0 t) (iblk2 V c 1 t))) (iblk2 V c 2 t) j
    = rowsTimes (clampBelow z0 (addRow (V c main_v58) (V c main_v59))) (V c main_arg5) (((cfg2.win 3).blk t).view.emb j)
  refine rowsTimes_at (clampBelow z0 (addRow (iblk2 V c 0 t) (iblk2 V c 1 t))) (iblk2 V c 2 t)
    (clampBelow z0 (addRow (V c main_v58) (V c main_v59))) (V c main_arg5) j
    (((cfg2.win 3).blk t).view.emb j) (fun k => ?_) (fun k => ?_)
  · refine clampBelow_at z0 (addRow (iblk2 V c 0 t) (iblk2 V c 1 t)) (addRow (V c main_v58) (V c main_v59))
      (ix2 (j 0) k) (ix2 ((((cfg2.win 3).blk t).view.emb j) 0) k) ?_
    refine addRow_at (iblk2 V c 0 t) (iblk2 V c 1 t) (V c main_v58) (V c main_v59)
      (ix2 (j 0) k) (ix2 ((((cfg2.win 3).blk t).view.emb j) 0) k) ?_ ?_
    · show V c main_v58 (((cfg2.win 0).blk t).view.emb (ix2 (j 0) k))
        = V c main_v58 (ix2 ((((cfg2.win 3).blk t).view.emb j) 0) k)
      refine congrArg (V c main_v58) (funext fun a => Fin.ext ?_)
      match a with
      | ⟨0, _⟩ => show win2_0.index t (0 : Fin 2) * 10000 + 1 * (j 0).val = win2_3.index t (0 : Fin 2) * 10000 + 1 * (j 0).val; omega
      | ⟨1, _⟩ => show win2_0.index t (1 : Fin 2) * 64 + 1 * k.val = k.val; omega
    · show V c main_v59 (((cfg2.win 1).blk t).view.emb (ix2 (0 : Fin 1) k)) = V c main_v59 (ix2 (0 : Fin 1) k)
      refine congrArg (V c main_v59) (funext fun a => Fin.ext ?_)
      match a with
      | ⟨0, _⟩ => show win2_1.index t (0 : Fin 2) * 1 + 1 * 0 = 0; omega
      | ⟨1, _⟩ => show win2_1.index t (1 : Fin 2) * 64 + 1 * k.val = k.val; omega
  · show V c main_arg5 (((cfg2.win 2).blk t).view.emb (ix2 k (j 1)))
      = V c main_arg5 (ix2 k ((((cfg2.win 3).blk t).view.emb j) 1))
    refine congrArg (V c main_arg5) (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_3.index t (1 : Fin 2) * 64 + 1 * (j 1).val; omega

/-- An index of the result array is in point t's block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v60).slice (win2_3.rect t)).set ↔ _
  rw [View.set_slice_whole, Rect.mem_set_unit]
  exact Iff.rfl

/-- Row r is in the block of point r / 10000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The result array after the launch: ((A + bias)⁺ · W). -/
theorem final2 (c : Dev nD) :
    (dat2 V c).arrAt 3 cfg2.N = rowsTimes (clampBelow z0 (addRow (V c main_v58) (V c main_v59))) (V c main_arg5) :=
  (dat2 V c).arrAt_eq_of_cover 3 (rowsTimes (clampBelow z0 (addRow (V c main_v58) (V c main_v59))) (V c main_arg5))
    (fun t _ => flushed2 V c t) cover2

end Cert.KernelIdeal.Region2

end
-- ==== Proof.Region3.lean ====
/-
  The last per-node launch: the aggregated rows plus the bias, clamped below at zero — ten blocks of 10000 rows.

  Point t reads rows 10000·t … of the aggregated array and the whole 1×64 bias row and writes back (rows + bias)⁺ as
  rows 10000·t … of the result: entry by entry, so the block written at point t is block t of the ONE array
  (A + bias)⁺; the ten blocks cover the 100000 rows.
-/
import proofs.«100298_j9079560864408_1_alg».proof.Proof.Gen.KernelIdeal.Frame
import proofs.«100298_j9079560864408_1_alg».proof.Proof.Payloads
import proofs.«100298_j9079560864408_1_alg».proof.Proof.LibBlockRows
import Idealize.ShloMosaic.Lib.Pipeline.Value

noncomputable section

namespace Cert.KernelIdeal.Region3

open Idealize.ShloMosaic Idealize.ShloMosaic.TcCoe Idealize.ShloMosaic.ValueIdx Idealize.SL.Sem
open Cert.KernelIdeal Cert.KernelIdeal.Gen Cert.KernelIdeal.Bodies Cert.RowDot Cert.RowsProduct Cert.RowBias Cert.BlockRows
open Idealize.ShloMosaic.Pipeline (Dat)

-- the region's entry contents: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 2 move along the rows with the point, window 1 stays. -/
theorem idx3 : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0 ∧ win3_2.index t (1 : Fin 2) = 0 :=
  (by decide +kernel : ∀ t : Fin grid3.N, win3_0.index t (0 : Fin 2) = win3_2.index t (0 : Fin 2) ∧ win3_0.index t (1 : Fin 2) = 0
    ∧ win3_1.index t (0 : Fin 2) = 0 ∧ win3_1.index t (1 : Fin 2) = 0 ∧ win3_2.index t (1 : Fin 2) = 0)

/-- Every block of rows is some point's. -/
theorem onto3 : ∀ q : Fin 10, ∃ t : Fin cfg3.N, win3_2.index t = ![q.val, 0] :=
  (by decide +kernel : ∀ q : Fin 10, ∃ t : Fin grid3.N, win3_2.index t = ![q.val, 0])

/-- What point t writes back is block t of (A + bias)⁺. -/
theorem flushed3 (c : Dev nD) (t : Fin cfg3.N) :
    (dat3 V c).flushed 2 t
      = ((cfg3.win 2).blk t).view.read (Elt Ideal) (clampBelow z0 (addRow (V c main_v73) (V c main_v74))) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  rw [pay3_eq]
  obtain ⟨e0, e1, e2, e3, e4⟩ := idx3 t
  funext j
  show clampBelow z0 (addRow (iblk3 V c 0 t) (iblk3 V c 1 t)) j
    = clampBelow z0 (addRow (V c main_v73) (V c main_v74)) (((cfg3.win 2).blk t).view.emb j)
  refine clampBelow_at z0 (addRow (iblk3 V c 0 t) (iblk3 V c 1 t)) (addRow (V c main_v73) (V c main_v74))
    j (((cfg3.win 2).blk t).view.emb j) ?_
  refine addRow_at (iblk3 V c 0 t) (iblk3 V c 1 t) (V c main_v73) (V c main_v74)
    j (((cfg3.win 2).blk t).view.emb j) ?_ ?_
  · show V c main_v73 (((cfg3.win 0).blk t).view.emb j) = V c main_v73 (((cfg3.win 2).blk t).view.emb j)
    refine congrArg (V c main_v73) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · show V c main_v74 (((cfg3.win 1).blk t).view.emb (ix2 (0 : Fin 1) (j 1)))
      = V c main_v74 (ix2 (0 : Fin 1) ((((cfg3.win 2).blk t).view.emb j) 1))
    refine congrArg (V c main_v74) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the result array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v75).slice (win3_2.rect t)).set ↔ _
  rw [View.set_slice_whole, Rect.mem_set_unit]
  exact Iff.rfl

/-- Row r is in the block of point r / 10000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the launch: (A + bias)⁺. -/
theorem final3 (c : Dev nD) :
    (dat3 V c).arrAt 2 cfg3.N = clampBelow z0 (addRow (V c main_v73) (V c main_v74)) :=
  (dat3 V c).arrAt_eq_of_cover 2 (clampBelow z0 (addRow (V c main_v73) (V c main_v74)))
    (fun t _ => flushed3 V c t) cover3

end Cert.KernelIdeal.Region3

end
-- ==== Proof.Region4.lean ====
/-
  The classifier launch: one grid point, every operand whole.

  The body computes ((P·W1 + b1)⁺ · W2) + b2 from the pooled 64×64 array P, the two weight matrices and the two bias
  rows, and writes the 64×2 result back whole: the result array after the launch is that function of the five operand
  arrays.
-/
import proofs.«100298_j9079560864408_1_alg».proof.Proof.Gen.KernelIdeal.Frame
import proofs.«100298_j9079560864408_1_alg».proof.Proof.Payloads
import proofs.«100298_j9079560864408_1_alg».proof.Proof.LibBlockRows
import Idealize.ShloMosaic.Lib.Pipeline.Value

noncomputable section

namespace Cert.KernelIdeal.Region4

open Idealize.ShloMosaic Idealize.ShloMosaic.TcCoe Idealize.ShloMosaic.ValueIdx Idealize.SL.Sem
open Cert.KernelIdeal Cert.KernelIdeal.Gen Cert.KernelIdeal.Bodies Cert.RowDot Cert.RowsProduct Cert.RowBias Cert.BlockRows
open Idealize.ShloMosaic.Pipeline (Dat)

-- the region's entry contents: any valuation of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-- The classifier: two dense layers, the first followed by the clamp. -/
def mlp (p : S64x64.Idx → EReal) (w1 : S64x32.Idx → EReal) (b1 : S1x32.Idx → EReal) (w2 : S32x2.Idx → EReal)
    (b2 : S1x2.Idx → EReal) : S64x2.Idx → EReal :=
  addRow (rowsTimes (clampBelow z0 (addRow (rowsTimes p w1) b1)) w2) b2

/-- The printed index maps at the one grid point: every window's block is block (0, 0). -/
theorem idx4 : ∀ t : Fin cfg4.N, win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0 :=
  (by decide +kernel : ∀ t : Fin grid4.N, win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0)

/-- Window 0's one block is its whole array. -/
theorem ib0 (c : Dev nD) (t : Fin cfg4.N) : (iblk4 V c 0 t : S64x64.Idx → EReal) = V c main_v87 := by
  obtain ⟨e00, e01, e10, e11, e20, e21, e30, e31, e40, e41, e50, e51⟩ := idx4 t
  funext y
  show V c main_v87 (((cfg4.win 0).blk t).view.emb y) = V c main_v87 y
  refine congrArg (V c main_v87) (funext fun a => Fin.ext ?_)
  match a with
  | ⟨0, _⟩ => show win4_0.index t (0 : Fin 2) * 64 + 1 * (y 0).val = (y 0).val; omega
  | ⟨1, _⟩ => show win4_0.index t (1 : Fin 2) * 64 + 1 * (y 1).val = (y 1).val; omega

/-- Window 1's one block is its whole array. -/
theorem ib1 (c : Dev nD) (t : Fin cfg4.N) : (iblk4 V c 1 t : S64x32.Idx → EReal) = V c main_arg7 := by
  obtain ⟨e00, e01, e10, e11, e20, e21, e30, e31, e40, e41, e50, e51⟩ := idx4 t
  funext y
  show V c main_arg7 (((cfg4.win 1).blk t).view.emb y) = V c main_arg7 y
  refine congrArg (V c main_arg7) (funext fun a => Fin.ext ?_)
  match a with
  | ⟨0, _⟩ => show win4_1.index t (0 : Fin 2) * 64 + 1 * (y 0).val = (y 0).val; omega
  | ⟨1, _⟩ => show win4_1.index t (1 : Fin 2) * 32 + 1 * (y 1).val = (y 1).val; omega

/-- Window 2's one block is its whole array. -/
theorem ib2 (c : Dev nD) (t : Fin cfg4.N) : (iblk4 V c 2 t : S1x32.Idx → EReal) = V c main_v88 := by
  obtain ⟨e00, e01, e10, e11, e20, e21, e30, e31, e40, e41, e50, e51⟩ := idx4 t
  funext y
  show V c main_v88 (((cfg4.win 2).blk t).view.emb y) = V c main_v88 y
  refine congrArg (V c main_v88) (funext fun a => Fin.ext ?_)
  match a with
  | ⟨0, _⟩ => show win4_2.index t (0 : Fin 2) * 1 + 1 * (y 0).val = (y 0).val; omega
  | ⟨1, _⟩ => show win4_2.index t (1 : Fin 2) * 32 + 1 * (y 1).val = (y 1).val; omega

/-- Window 3's one block is its whole array. -/
theorem ib3 (c : Dev nD) (t : Fin cfg4.N) : (iblk4 V c 3 t : S32x2.Idx → EReal) = V c main_arg9 := by
  obtain ⟨e00, e01, e10, e11, e20, e21, e30, e31, e40, e41, e50, e51⟩ := idx4 t
  funext y
  show V c main_arg9 (((cfg4.win 3).blk t).view.emb y) = V c main_arg9 y
  refine congrArg (V c main_arg9) (funext fun a => Fin.ext ?_)
  match a with
  | ⟨0, _⟩ => show win4_3.index t (0 : Fin 2) * 32 + 1 * (y 0).val = (y 0).val; omega
  | ⟨1, _⟩ => show win4_3.index t (1 : Fin 2) * 2 + 1 * (y 1).val = (y 1).val; omega

/-- Window 4's one block is its whole array. -/
theorem ib4 (c : Dev nD) (t : Fin cfg4.N) : (iblk4 V c 4 t : S1x2.Idx → EReal) = V c main_v89 := by
  obtain ⟨e00, e01, e10, e11, e20, e21, e30, e31, e40, e41, e50, e51⟩ := idx4 t
  funext y
  show V c main_v89 (((cfg4.win 4).blk t).view.emb y) = V c main_v89 y
  refine congrArg (V c main_v89) (funext fun a => Fin.ext ?_)
  match a with
  | ⟨0, _⟩ => show win4_4.index t (0 : Fin 2) * 1 + 1 * (y 0).val = (y 0).val; omega
  | ⟨1, _⟩ => show win4_4.index t (1 : Fin 2) * 2 + 1 * (y 1).val = (y 1).val; omega

/-- What the one point writes back is the classifier of the operand arrays, whole. -/
theorem flushed4 (c : Dev nD) (t : Fin cfg4.N) :
    (dat4 V c).flushed 5 t
      = ((cfg4.win 5).blk t).view.read (Elt Ideal)
          (mlp (V c main_v87) (V c main_arg7) (V c main_v88) (V c main_arg9) (V c main_v89)) := by
  show (cfg4.win 5).cut (grid4.coords t) ((dat4 V c).after 5 t) = _
  rw [after4_5]
  unfold out4_5
  rw [View.canon_unit_zero hz]
  simp only [View.ld_unit_zero (S := S64x64) hz, View.ld_unit_zero (S := S64x32) hz, View.ld_unit_zero (S := S1x32) hz,
    View.ld_unit_zero (S := S32x2) hz, View.ld_unit_zero (S := S1x2) hz]
  rw [pay4_eq, ib0 V c t, ib1 V c t, ib2 V c t, ib3 V c t, ib4 V c t]
  obtain ⟨e00, e01, e10, e11, e20, e21, e30, e31, e40, e41, e50, e51⟩ := idx4 t
  funext j
  show mlp (V c main_v87) (V c main_arg7) (V c main_v88) (V c main_arg9) (V c main_v89) j
    = mlp (V c main_v87) (V c main_arg7) (V c main_v88) (V c main_arg9) (V c main_v89) (((cfg4.win 5).blk t).view.emb j)
  refine congrArg (mlp (V c main_v87) (V c main_arg7) (V c main_v88) (V c main_arg9) (V c main_v89)) (funext fun a => Fin.ext ?_)
  match a with
  | ⟨0, _⟩ => show (j 0).val = win4_5.index t (0 : Fin 2) * 64 + 1 * (j 0).val; omega
  | ⟨1, _⟩ => show (j 1).val = win4_5.index t (1 : Fin 2) * 2 + 1 * (j 1).val; omega

/-- An index of the result array is in the point's block iff each coordinate is in the block's range on its axis. -/
theorem mem_blk4 (t : Fin cfg4.N) (i : S64x2.Idx) :
    i ∈ ((cfg4.win 5).blk t).view.set ↔ ∀ a : Fin 2, win4_5.index t a * S64x2.size a ≤ (i a).val
      ∧ (i a).val < win4_5.index t a * S64x2.size a + S64x2.size a := by
  show i ∈ ((View.whole main_v90).slice (win4_5.rect t)).set ↔ _
  rw [View.set_slice_whole, Rect.mem_set_unit]
  exact Iff.rfl

/-- The one block is the whole result array. -/
theorem cover4 (i : S64x2.Idx) :
    ∃ t : Fin cfg4.N, (cfg4.win 5).flush t = true ∧ i ∈ ((cfg4.win 5).blk t).view.set := by
  have hi0 : (i 0).val < 64 := (i 0).isLt
  have hi1 : (i 1).val < 2 := (i 1).isLt
  obtain ⟨e00, e01, e10, e11, e20, e21, e30, e31, e40, e41, e50, e51⟩ := idx4 t4_0
  refine ⟨t4_0, flush4_5 t4_0, ?_⟩
  rw [mem_blk4]
  intro a
  match a with
  | ⟨0, _⟩ => show win4_5.index t4_0 (0 : Fin 2) * 64 ≤ (i 0).val ∧ (i 0).val < win4_5.index t4_0 (0 : Fin 2) * 64 + 64; omega
  | ⟨1, _⟩ => show win4_5.index t4_0 (1 : Fin 2) * 2 ≤ (i 1).val ∧ (i 1).val < win4_5.index t4_0 (1 : Fin 2) * 2 + 2; omega

/-- The result array after the launch: the classifier of the operand arrays. -/
theorem final4 (c : Dev nD) :
    (dat4 V c).arrAt 5 cfg4.N = mlp (V c main_v87) (V c main_arg7) (V c main_v88) (V c main_arg9) (V c main_v89) :=
  (dat4 V c).arrAt_eq_of_cover 5 (mlp (V c main_v87) (V c main_arg7) (V c main_v88) (V c main_arg9) (V c main_v89))
    (fun t _ => flushed4 V c t) cover4

end Cert.KernelIdeal.Region4

end
-- ==== Proof.KValue.lean ====
/-
  What the kernel's program computes: its result buffer at the end of the run, as one function of the argument arrays.

  Boundary by boundary.  The first launch leaves x·W1.  Each later stretch of host operations runs one round of message
  passing on the previous launch's result (with the edges' sources, targets and normalisations that the first stretches
  computed and that every launch left alone) and recasts the next bias as a 1×64 row; each later launch then leaves
  ((aggregate + bias)⁺ · W), and the fourth (aggregate + bias)⁺.  The last stretch takes the mean over the nodes of every
  graph and recasts the classifier's two biases as rows; the last launch leaves the classifier of the pooled array.
-/
import proofs.«100298_j9079560864408_1_alg».proof.Proof.Keep
import proofs.«100298_j9079560864408_1_alg».proof.Proof.Region0
import proofs.«100298_j9079560864408_1_alg».proof.Proof.Region1
import proofs.«100298_j9079560864408_1_alg».proof.Proof.Region2
import proofs.«100298_j9079560864408_1_alg».proof.Proof.Region3
import proofs.«100298_j9079560864408_1_alg».proof.Proof.Region4

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.Chain Cert.KernelIdeal.Keep Cert.KernelIdeal.Bodies
open Cert.RowsProduct Cert.RowBias
open Cert.KernelIdeal.Region4 (mlp)

/-- A hidden layer after the first: one round of message passing on the previous layer's product, the bias added on
    every row, the clamp, and the product with the layer's matrix. -/
def nextProduct (e : IVec S2x1250000 32) (h : S100000x64.Idx → EReal) (b : S64.Idx → EReal) (W : S64x64.Idx → EReal) :
    S100000x64.Idx → EReal :=
  rowsTimes (clampBelow z0 (addRow (aggOf e h) (shapeCast S1x64 b shapeCasts_S64_S1x64))) W

/-- The node features after the last layer. -/
def lastFeatures (e : IVec S2x1250000 32) (h : S100000x64.Idx → EReal) (b : S64.Idx → EReal) : S100000x64.Idx → EReal :=
  clampBelow z0 (addRow (aggOf e h) (shapeCast S1x64 b shapeCasts_S64_S1x64))

/-- The kernel program's result as a function of its thirteen argument arrays. -/
def kernelOut (x : S100000x64.Idx → EReal) (W1 : S64x64.Idx → EReal) (b1 : S64.Idx → EReal) (W2 : S64x64.Idx → EReal)
    (b2 : S64.Idx → EReal) (W3 : S64x64.Idx → EReal) (b3 : S64.Idx → EReal) (Wc1 : S64x32.Idx → EReal) (bc1 : S32.Idx → EReal)
    (Wc2 : S32x2.Idx → EReal) (bc2 : S2.Idx → EReal) (e : IVec S2x1250000 32) (batch : IVec S100000 32) : S64x2.Idx → EReal :=
  mlp (poolOf batch (lastFeatures e (nextProduct e (nextProduct e (rowsTimes x W1) b1 W2) b2 W3) b3))
    Wc1 (shapeCast S1x32 bc1 shapeCasts_S32_S1x32) Wc2 (shapeCast S1x2 bc2 shapeCasts_S2_S1x2)

/-- One round of message passing from the edges' sources, targets and normalisations. -/
def aggForm (src dst : IVec S1350000 32) (norm : FVec Ideal S1350000 .f32) (h : FVec Ideal S100000x64 .f32) : FVec Ideal S100000x64 .f32 :=
  Host.scatterAdd (F := Ideal) scatter_S100000x64_S1350000x1_S1350000x64_1_0_0_1 (broadcastInDim S100000x64 ![] bcast_S_S100000x64 (constant S_ .f32 0x00000000#32)) (broadcastInDim S1350000x1 ![0] bcast_S1350000_S1350000x1_0 dst) (mulf (Host.gather gather_S100000x64_S1350000x1_S1350000x64_1_0_n_n_0_1_164 h (broadcastInDim S1350000x1 ![0] bcast_S1350000_S1350000x1_0 (wrap src))) (broadcastInDim S1350000x64 ![0, 1] bcast_S1350000x1_S1350000x64_0_1 (broadcastInDim S1350000x1 ![0] bcast_S1350000_S1350000x1_0 norm)))

/-- Message passing is that form at the edges' sources, targets and normalisations. -/
theorem aggOf_eq_form (e : IVec S2x1250000 32) (h : FVec Ideal S100000x64 .f32) :
    aggOf e h = aggForm (srcOf e) (dstOf e) (normOf e) h := rfl

/-! ## The stretches between the launches, from any contents -/

set_option maxRecDepth 8192 in
set_option maxHeartbeats 4000000 in
theorem agg_step1 (W : Valuation τ sig (Elt Ideal)) :
    StableHlo.after hostOps1 W (Proc.devRef .tc main_v43)
      = aggForm (W (Proc.devRef .tc main_v3)) (W (Proc.devRef .tc main_v6)) (W (Proc.devRef .tc main_v29)) (W (Proc.devRef .tc main_v30)) := by
  simp only [hostOps1]
  after_results_simp
  rfl

set_option maxRecDepth 8192 in
set_option maxHeartbeats 4000000 in
theorem agg_step2 (W : Valuation τ sig (Elt Ideal)) :
    StableHlo.after hostOps2 W (Proc.devRef .tc main_v58)
      = aggForm (W (Proc.devRef .tc main_v3)) (W (Proc.devRef .tc main_v6)) (W (Proc.devRef .tc main_v29)) (W (Proc.devRef .tc main_v45)) := by
  simp only [hostOps2]
  after_results_simp
  rfl

set_option maxRecDepth 8192 in
set_option maxHeartbeats 4000000 in
theorem agg_step3 (W : Valuation τ sig (Elt Ideal)) :
    StableHlo.after hostOps3 W (Proc.devRef .tc main_v73)
      = aggForm (W (Proc.devRef .tc main_v3)) (W (Proc.devRef .tc main_v6)) (W (Proc.devRef .tc main_v29)) (W (Proc.devRef .tc main_v60)) := by
  simp only [hostOps3]
  after_results_simp
  rfl

set_option maxRecDepth 8192 in
set_option maxHeartbeats 4000000 in
theorem pool_step (W : Valuation τ sig (Elt Ideal)) :
    StableHlo.after hostOps4 W (Proc.devRef .tc main_v87)
      = poolOf (W (Proc.devRef .tc main_arg12)) (W (Proc.devRef .tc main_v75)) := by
  simp only [hostOps4]
  after_results_simp
  rfl

variable (m : (ℓ : Loc nD τ sig) → Buf (Elt Ideal) ℓ) (ρ : Dev nD → PrngReg)

/-- After the first launch: x·W1. -/
theorem W4_v30 (c : Dev nD) : W4 m ρ c (Proc.devRef .tc main_v30) = rowsTimes (m ((c : Thread nD τ).loc main_arg0)) (m ((c : Thread nD τ).loc main_arg1)) := by
  refine (W4_arr m ρ c 2).trans ?_
  rw [Region0.final0 (V3 m ρ) c]
  show rowsTimes (W3 m ρ c (Proc.devRef .tc main_arg0)) (W3 m ρ c (Proc.devRef .tc main_arg1)) = _
  rw [W3_arg0, W3_arg1]

/-- The first round of message passing. -/
theorem W5_v43 (c : Dev nD) : W5 m ρ c (Proc.devRef .tc main_v43) = aggOf (m ((c : Thread nD τ).loc main_arg11)) (rowsTimes (m ((c : Thread nD τ).loc main_arg0)) (m ((c : Thread nD τ).loc main_arg1))) := by
  refine (agg_step1 (W4 m ρ c)).trans ?_
  rw [at4_v3, at4_v6, at4_v29, W4_v30, aggOf_eq_form]

theorem W5_v44 (c : Dev nD) : W5 m ρ c (Proc.devRef .tc main_v44) = shapeCast S1x64 (m ((c : Thread nD τ).loc main_arg2)) shapeCasts_S64_S1x64 := by
  show StableHlo.after hostOps1 (W4 m ρ c) (Proc.devRef .tc main_v44) = _
  simp only [hostOps1]
  after_results
  rw [at4_arg2]
  rfl

/-- After the second launch. -/
theorem W6_v45 (c : Dev nD) : W6 m ρ c (Proc.devRef .tc main_v45)
    = nextProduct (m ((c : Thread nD τ).loc main_arg11)) (rowsTimes (m ((c : Thread nD τ).loc main_arg0)) (m ((c : Thread nD τ).loc main_arg1))) (m ((c : Thread nD τ).loc main_arg2)) (m ((c : Thread nD τ).loc main_arg3)) := by
  refine (W6_arr m ρ c 3).trans ?_
  rw [Region1.final1 (V5 m ρ) c]
  show rowsTimes (clampBelow z0 (addRow (W5 m ρ c (Proc.devRef .tc main_v43)) (W5 m ρ c (Proc.devRef .tc main_v44))))
      (W5 m ρ c (Proc.devRef .tc main_arg3)) = _
  rw [W5_v43, W5_v44, at5_arg3]
  rfl

theorem W7_v58 (c : Dev nD) : W7 m ρ c (Proc.devRef .tc main_v58)
    = aggOf (m ((c : Thread nD τ).loc main_arg11)) (nextProduct (m ((c : Thread nD τ).loc main_arg11)) (rowsTimes (m ((c : Thread nD τ).loc main_arg0)) (m ((c : Thread nD τ).loc main_arg1))) (m ((c : Thread nD τ).loc main_arg2)) (m ((c : Thread nD τ).loc main_arg3))) := by
  refine (agg_step2 (W6 m ρ c)).trans ?_
  rw [at6_v3, at6_v6, at6_v29, W6_v45, aggOf_eq_form]

theorem W7_v59 (c : Dev nD) : W7 m ρ c (Proc.devRef .tc main_v59) = shapeCast S1x64 (m ((c : Thread nD τ).loc main_arg4)) shapeCasts_S64_S1x64 := by
  show StableHlo.after hostOps2 (W6 m ρ c) (Proc.devRef .tc main_v59) = _
  simp only [hostOps2]
  after_results
  rw [at6_arg4]
  rfl

/-- After the third launch. -/
theorem W8_v60 (c : Dev nD) : W8 m ρ c (Proc.devRef .tc main_v60)
    = nextProduct (m ((c : Thread nD τ).loc main_arg11)) (nextProduct (m ((c : Thread nD τ).loc main_arg11)) (rowsTimes (m ((c : Thread nD τ).loc main_arg0)) (m ((c : Thread nD τ).loc main_arg1))) (m ((c : Thread nD τ).loc main_arg2)) (m ((c : Thread nD τ).loc main_arg3))) (m ((c : Thread nD τ).loc main_arg4)) (m ((c : Thread nD τ).loc main_arg5)) := by
  refine (W8_arr m ρ c 3).trans ?_
  rw [Region2.final2 (V7 m ρ) c]
  show rowsTimes (clampBelow z0 (addRow (W7 m ρ c (Proc.devRef .tc main_v58)) (W7 m ρ c (Proc.devRef .tc main_v59))))
      (W7 m ρ c (Proc.devRef .tc main_arg5)) = _
  rw [W7_v58, W7_v59, at7_arg5]
  rfl

theorem W9_v73 (c : Dev nD) : W9 m ρ c (Proc.devRef .tc main_v73)
    = aggOf (m ((c : Thread nD τ).loc main_arg11)) (nextProduct (m ((c : Thread nD τ).loc main_arg11)) (nextProduct (m ((c : Thread nD τ).loc main_arg11)) (rowsTimes (m ((c : Thread nD τ).loc main_arg0)) (m ((c : Thread nD τ).loc main_arg1))) (m ((c : Thread nD τ).loc main_arg2)) (m ((c : Thread nD τ).loc main_arg3))) (m ((c : Thread nD τ).loc main_arg4)) (m ((c : Thread nD τ).loc main_arg5))) := by
  refine (agg_step3 (W8 m ρ c)).trans ?_
  rw [at8_v3, at8_v6, at8_v29, W8_v60, aggOf_eq_form]

theorem W9_v74 (c : Dev nD) : W9 m ρ c (Proc.devRef .tc main_v74) = shapeCast S1x64 (m ((c : Thread nD τ).loc main_arg6)) shapeCasts_S64_S1x64 := by
  show StableHlo.after hostOps3 (W8 m ρ c) (Proc.devRef .tc main_v74) = _
  simp only [hostOps3]
  after_results
  rw [at8_arg6]
  rfl

/-- After the fourth launch: the node features. -/
theorem W10_v75 (c : Dev nD) : W10 m ρ c (Proc.devRef .tc main_v75)
    = lastFeatures (m ((c : Thread nD τ).loc main_arg11)) (nextProduct (m ((c : Thread nD τ).loc main_arg11)) (nextProduct (m ((c : Thread nD τ).loc main_arg11)) (rowsTimes (m ((c : Thread nD τ).loc main_arg0)) (m ((c : Thread nD τ).loc main_arg1))) (m ((c : Thread nD τ).loc main_arg2)) (m ((c : Thread nD τ).loc main_arg3))) (m ((c : Thread nD τ).loc main_arg4)) (m ((c : Thread nD τ).loc main_arg5))) (m ((c : Thread nD τ).loc main_arg6)) := by
  refine (W10_arr m ρ c 2).trans ?_
  rw [Region3.final3 (V9 m ρ) c]
  show clampBelow z0 (addRow (W9 m ρ c (Proc.devRef .tc main_v73)) (W9 m ρ c (Proc.devRef .tc main_v74))) = _
  rw [W9_v73, W9_v74]
  rfl

/-- The pooled features. -/
theorem W11_v87 (c : Dev nD) : W11 m ρ c (Proc.devRef .tc main_v87)
    = poolOf (m ((c : Thread nD τ).loc main_arg12)) (lastFeatures (m ((c : Thread nD τ).loc main_arg11)) (nextProduct (m ((c : Thread nD τ).loc main_arg11)) (nextProduct (m ((c : Thread nD τ).loc main_arg11)) (rowsTimes (m ((c : Thread nD τ).loc main_arg0)) (m ((c : Thread nD τ).loc main_arg1))) (m ((c : Thread nD τ).loc main_arg2)) (m ((c : Thread nD τ).loc main_arg3))) (m ((c : Thread nD τ).loc main_arg4)) (m ((c : Thread nD τ).loc main_arg5))) (m ((c : Thread nD τ).loc main_arg6))) := by
  refine (pool_step (W10 m ρ c)).trans ?_
  rw [at10_arg12, W10_v75]

theorem W11_v88 (c : Dev nD) : W11 m ρ c (Proc.devRef .tc main_v88) = shapeCast S1x32 (m ((c : Thread nD τ).loc main_arg8)) shapeCasts_S32_S1x32 := by
  show StableHlo.after hostOps4 (W10 m ρ c) (Proc.devRef .tc main_v88) = _
  simp only [hostOps4]
  after_results
  rw [at10_arg8]
  rfl

theorem W11_v89 (c : Dev nD) : W11 m ρ c (Proc.devRef .tc main_v89) = shapeCast S1x2 (m ((c : Thread nD τ).loc main_arg10)) shapeCasts_S2_S1x2 := by
  show StableHlo.after hostOps4 (W10 m ρ c) (Proc.devRef .tc main_v89) = _
  simp only [hostOps4]
  after_results
  rw [at10_arg10]
  rfl

/-- THE RESULT: after the last launch the result buffer holds `kernelOut` of the argument arrays. -/
theorem W12_v90 (c : Dev nD) : W12 m ρ c (Proc.devRef .tc main_v90) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 5).trans ?_
  rw [Region4.final4 (V11 m ρ) c]
  show mlp (W11 m ρ c (Proc.devRef .tc main_v87)) (W11 m ρ c (Proc.devRef .tc main_arg7)) (W11 m ρ c (Proc.devRef .tc main_v88))
      (W11 m ρ c (Proc.devRef .tc main_arg9)) (W11 m ρ c (Proc.devRef .tc main_v89)) = _
  rw [W11_v87, at11_arg7, W11_v88, at11_arg9, W11_v89]
  rfl

end Cert.KernelIdeal.KValue

end
-- ==== Proof.KRun.lean ====
/-
  The kernel program's run with its result named.

  Every weakly fair execution of the program terminates, nothing faulting; at the end every unscoped buffer of the
  TensorCore holds the last boundary's contents.  Read at the result buffer that is `kernelOut` of the argument arrays
  (the value computed boundary by boundary), and at each argument array its launch contents: the program's twelve
  segments are launched from the initial memory, each host stretch and each launch taking the buffers from one
  boundary's contents to the next, and the last thread state is read against the final state.
-/
import proofs.«100298_j9079560864408_1_alg».proof.Proof.Gen.KernelIdeal.Frame
import proofs.«100298_j9079560864408_1_alg».proof.Proof.KValue

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.KValue

local notation "𝕄" => MT nD τ sig Unit (Elt Ideal) ℕ (UR sig nD τ) ℕ

variable (m : (ℓ : Loc nD τ sig) → Buf (Elt Ideal) ℓ) (ρ : Dev nD → PrngReg)

-- the implicit arguments of the theorem about a run of segments are found by unifying its conclusion with this one,
-- which takes unfolding plain definitions in a metavariable's type
set_option backward.isDefEq.respectTransparency.types false in
/-- The run: the result buffer ends at `kernelOut` of the argument arrays, the arguments as launched. -/
theorem run : θ_run defs (onTc (τ := τ) (main (F := Ideal))) ⟨m, fun _ => 0, ρ⟩ (fun r => ∀ c : Dev nD,
      r.2.mem ((c.tc : Thread nD τ).loc main_v90) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v90 (by decide))).trans (W12_v90 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KRun

end
-- ==== Proof.ChainR.lean ====
/-
  The graph side of the computation, as the reference program spells it: from the edge list, the edges with the self
  loops added, the degree normalisation of every edge, one round of message passing (gather the source rows, scale,
  sum at the targets), and the mean over the nodes of every graph.  The kernel's host program applies the same
  operations around its launches.
-/
import proofs.«100298_j9079560864408_1_alg».proof.Proof.Gen.ReferenceIdeal
import Idealize.ShloMosaic.PureOps.Ideal

noncomputable section

namespace Cert.ReferenceIdeal.Chain

open Idealize.ShloMosaic Cert.ReferenceIdeal Cert.ReferenceIdeal.Facts₀

/-- The source node of every edge, then every node once (the self loops). -/
def srcOf (e : IVec S2x1250000 32) : IVec S1350000 32 :=
  concatenate S1350000 0 [⟨S1250000, (shapeCast _ (extractStridedSlice S1x1250000 ![0, 0] e slices_S2x1250000_S1x1250000_0_0) shapeCasts_S1x1250000_S1250000)⟩, ⟨S100000, (iotaInDim S100000 32 0)⟩] concatenates_S1250000_S100000_S1350000_d0

/-- The target node of every edge, then every node once. -/
def dstOf (e : IVec S2x1250000 32) : IVec S1350000 32 :=
  concatenate S1350000 0 [⟨S1250000, (shapeCast _ (extractStridedSlice S1x1250000 ![1, 0] e slices_S2x1250000_S1x1250000_1_0) shapeCasts_S1x1250000_S1250000)⟩, ⟨S100000, (iotaInDim S100000 32 0)⟩] concatenates_S1250000_S100000_S1350000_d0

/-- A node number read as an index: a negative one counts from the end. -/
def wrap (v : IVec S1350000 32) : IVec S1350000 32 :=
  select (cmpi .slt v (broadcastInDim S1350000 ![] bcast_S_S1350000 (constantI S_ 32 0#32))) (addi v (broadcastInDim S1350000 ![] bcast_S_S1350000 (constantI S_ 32 100000#32))) v

/-- The degree of every node: the number of edges (self loop included) that end there. -/
def degOf (e : IVec S2x1250000 32) : FVec Ideal S100000 .f32 :=
  Host.scatterAdd (F := Ideal) scatter_S100000_S1350000x1_S1350000_n_0_0_1 (broadcastInDim S100000 ![] bcast_S_S100000 (constant S_ .f32 0x00000000#32)) (broadcastInDim S1350000x1 ![0] bcast_S1350000_S1350000x1_0 (dstOf e)) (broadcastInDim S1350000 ![] bcast_S_S1350000 (constant S_ .f32 0x3F800000#32))

/-- deg^(-1/2) where the degree is positive, zero elsewhere. -/
def dinvOf (e : IVec S2x1250000 32) : FVec Ideal S100000 .f32 :=
  select (cmpf (F := Ideal) .ogt (degOf e) (broadcastInDim S100000 ![] bcast_S_S100000 (constant S_ .f32 0x00000000#32))) (Host.rsqrt (degOf e)) (broadcastInDim S100000 ![] bcast_S_S100000 (id (constant S_ .f32 0x00000000#32)))

/-- The symmetric normalisation of every edge: dinv(source) · dinv(target). -/
def normOf (e : IVec S2x1250000 32) : FVec Ideal S1350000 .f32 :=
  mulf (Host.gather gather_S100000_S1350000x1_S1350000_n_0_n_n_0_1_1 (dinvOf e) (broadcastInDim S1350000x1 ![0] bcast_S1350000_S1350000x1_0 (wrap (srcOf e)))) (Host.gather gather_S100000_S1350000x1_S1350000_n_0_n_n_0_1_1 (dinvOf e) (broadcastInDim S1350000x1 ![0] bcast_S1350000_S1350000x1_0 (wrap (dstOf e))))

/-- One round of message passing: every edge carries its source's row times the edge's normalisation to its target,
    where the rows are summed. -/
def aggOf (e : IVec S2x1250000 32) (h : FVec Ideal S100000x64 .f32) : FVec Ideal S100000x64 .f32 :=
  Host.scatterAdd (F := Ideal) scatter_S100000x64_S1350000x1_S1350000x64_1_0_0_1 (broadcastInDim S100000x64 ![] bcast_S_S100000x64 (constant S_ .f32 0x00000000#32)) (broadcastInDim S1350000x1 ![0] bcast_S1350000_S1350000x1_0 (dstOf e)) (mulf (Host.gather gather_S100000x64_S1350000x1_S1350000x64_1_0_n_n_0_1_164 h (broadcastInDim S1350000x1 ![0] bcast_S1350000_S1350000x1_0 (wrap (srcOf e)))) (broadcastInDim S1350000x64 ![0, 1] bcast_S1350000x1_S1350000x64_0_1 (broadcastInDim S1350000x1 ![0] bcast_S1350000_S1350000x1_0 (normOf e))))

/-- The mean of the rows of every graph: the rows summed by graph, over the number of the graph's nodes (at least one). -/
def poolOf (batch : IVec S100000 32) (h : FVec Ideal S100000x64 .f32) : FVec Ideal S64x64 .f32 :=
  Host.divf (F := Ideal) (Host.scatterAdd (F := Ideal) scatter_S64x64_S100000x1_S100000x64_1_0_0_1 (broadcastInDim S64x64 ![] bcast_S_S64x64 (constant S_ .f32 0x00000000#32)) (broadcastInDim S100000x1 ![0] bcast_S100000_S100000x1_0 batch) h) (broadcastInDim S64x64 ![0, 1] bcast_S64x1_S64x64_0_1 (broadcastInDim S64x1 ![0] bcast_S64_S64x1_0 (maximumf (Host.scatterAdd (F := Ideal) scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))

end Cert.ReferenceIdeal.Chain

end
-- ==== Proof.RefValue.lean ====
/-
  What the reference computes, and that it is what the kernel's program computes.

  The reference's result is, layer by layer:  h ↦ (aggregate(h·W) + b)⁺  three times from the node features, the mean
  over the nodes of every graph, then the classifier ((P·Wc1 + bc1)⁺ · Wc2) + bc2 — the aggregation and the pooling the
  same host operations as in the kernel's program.  The kernel's program groups the same operations differently: its
  first launch is the product alone, each later launch adds the previous layer's bias, clamps and multiplies by the next
  matrix, the fourth adds the last bias and clamps.  Written with the row-by-row product, "array plus a row" and the
  clamp, the two results are the same expression of the thirteen argument arrays: a product on the host and a product on
  the vector unit are the same sums, a bias spread by the host and by the vector unit the same addition, and a change
  of float format keeps every number.
-/
import proofs.«100298_j9079560864408_1_alg».proof.Proof.RefRun
import proofs.«100298_j9079560864408_1_alg».proof.Proof.ChainR
import proofs.«100298_j9079560864408_1_alg».proof.Proof.KValue

noncomputable section

namespace Cert.ReferenceIdeal.RefValue

open Idealize.ShloMosaic Idealize.ShloMosaic.TcCoe Idealize.SL.Sem
open Cert.ReferenceIdeal Cert.ReferenceIdeal.Gen Cert.ReferenceIdeal.Chain
open Cert.RowsProduct Cert.RowBias
open Cert.KernelIdeal.Bodies (z0)

/-- One hidden layer of the reference: the product with the layer's matrix, one round of message passing, the bias on
    every row, the clamp. -/
def hidden (e : IVec S2x1250000 32) (h : FVec Ideal S100000x64 .f32) (W : FVec Ideal S64x64 .f32) (b : FVec Ideal S64 .f32) :
    FVec Ideal S100000x64 .f32 :=
  maximumf (F := Ideal) (φ := .f32) (addf (F := Ideal) (φ := .f32) (aggOf e (Host.dotGeneral (F := Ideal) dot_S100000x64_S64x64_S100000x64_1_0_0_1_n_n none h W)) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))

/-- The reference's result as a function of its thirteen argument arrays. -/
def refOut (x : FVec Ideal S100000x64 .f32) (W1 : FVec Ideal S64x64 .f32) (b1 : FVec Ideal S64 .f32) (W2 : FVec Ideal S64x64 .f32)
    (b2 : FVec Ideal S64 .f32) (W3 : FVec Ideal S64x64 .f32) (b3 : FVec Ideal S64 .f32) (Wc1 : FVec Ideal S64x32 .f32) (bc1 : FVec Ideal S32 .f32)
    (Wc2 : FVec Ideal S32x2 .f32) (bc2 : FVec Ideal S2 .f32) (e : IVec S2x1250000 32) (batch : IVec S100000 32) : FVec Ideal S64x2 .f32 :=
  addf (F := Ideal) (φ := .f32) (Host.dotGeneral (F := Ideal) dot_S64x32_S32x2_S64x2_1_0_0_1_n_n none (maximumf (F := Ideal) (φ := .f32) (addf (F := Ideal) (φ := .f32) (Host.dotGeneral (F := Ideal) dot_S64x64_S64x32_S64x32_1_0_0_1_n_n none (poolOf batch (hidden e (hidden e (hidden e x W1 b1) W2 b2) W3 b3)) Wc1) (broadcastInDim S64x32 ![0, 1] bcast_S1x32_S64x32_0_1 (broadcastInDim S1x32 ![1] bcast_S32_S1x32_1 bc1))) (broadcastInDim S64x32 ![] bcast_S_S64x32 (constant (F := Ideal) S_ .f32 0x00000000#32))) Wc2) (broadcastInDim S64x2 ![0, 1] bcast_S1x2_S64x2_0_1 (broadcastInDim S1x2 ![1] bcast_S2_S1x2_1 bc2))

/-- The term the reference's run ends at is `refOut` of the launch contents of the arguments. -/
theorem res_eq (m : (ℓ : Loc nD τ sig) → Buf (Elt Ideal) ℓ) (c : Dev nD) :
    Cert.ReferenceIdeal.ValueP.res_main_v104 (F := Ideal) m c
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v104 refOut hidden poolOf aggOf normOf dinvOf degOf wrap srcOf dstOf
  rfl

/-! ## The two groupings are one function -/

/-- The host's 100000×64 by 64×64 product is the row-by-row product. -/
theorem dotA (x : FVec Ideal S100000x64 .f32) (w : FVec Ideal S64x64 .f32) :
    Host.dotGeneral (F := Ideal) dot_S100000x64_S64x64_S100000x64_1_0_0_1_n_n none x w = rowsTimes x w :=
  hostDot_eq_rowsTimes none x w

theorem dotB (x : FVec Ideal S64x64 .f32) (w : FVec Ideal S64x32 .f32) :
    Host.dotGeneral (F := Ideal) dot_S64x64_S64x32_S64x32_1_0_0_1_n_n none x w = rowsTimes x w :=
  hostDot_eq_rowsTimes none x w

theorem dotC (x : FVec Ideal S64x32 .f32) (w : FVec Ideal S32x2 .f32) :
    Host.dotGeneral (F := Ideal) dot_S64x32_S32x2_S64x2_1_0_0_1_n_n none x w = rowsTimes x w :=
  hostDot_eq_rowsTimes none x w

/-- A hidden layer, in the row-by-row vocabulary. -/
theorem hidden_eq (e : IVec S2x1250000 32) (h : FVec Ideal S100000x64 .f32) (W : FVec Ideal S64x64 .f32) (b : FVec Ideal S64 .f32) :
    hidden e h W b
      = clampBelow z0 (addRow (aggOf e (rowsTimes h W)) (shapeCast S1x64 b Cert.KernelIdeal.Gen.shapeCasts_S64_S1x64)) := by
  unfold hidden
  rw [dotA, addf_hostSpread_eq _ _ _ _ Cert.KernelIdeal.Gen.shapeCasts_S64_S1x64, maximumf_hostSplat_eq]

/-- The message passing of the two programs is one function. -/
theorem agg_eq : aggOf = Cert.KernelIdeal.Chain.aggOf := by
  funext e h
  unfold aggOf Cert.KernelIdeal.Chain.aggOf normOf Cert.KernelIdeal.Chain.normOf dinvOf Cert.KernelIdeal.Chain.dinvOf
    degOf Cert.KernelIdeal.Chain.degOf wrap Cert.KernelIdeal.Chain.wrap srcOf Cert.KernelIdeal.Chain.srcOf
    dstOf Cert.KernelIdeal.Chain.dstOf
  rfl

/-- The pooling of the two programs is one function. -/
theorem pool_eq : poolOf = Cert.KernelIdeal.Chain.poolOf := by
  funext batch h
  unfold poolOf Cert.KernelIdeal.Chain.poolOf
  rfl

/-- THE BRIDGE: the reference's function of the arguments is the kernel program's. -/
theorem refOut_eq_kernelOut (x : FVec Ideal S100000x64 .f32) (W1 : FVec Ideal S64x64 .f32) (b1 : FVec Ideal S64 .f32) (W2 : FVec Ideal S64x64 .f32)
    (b2 : FVec Ideal S64 .f32) (W3 : FVec Ideal S64x64 .f32) (b3 : FVec Ideal S64 .f32) (Wc1 : FVec Ideal S64x32 .f32) (bc1 : FVec Ideal S32 .f32)
    (Wc2 : FVec Ideal S32x2 .f32) (bc2 : FVec Ideal S2 .f32) (e : IVec S2x1250000 32) (batch : IVec S100000 32) :
    refOut x W1 b1 W2 b2 W3 b3 Wc1 bc1 Wc2 bc2 e batch
      = Cert.KernelIdeal.KValue.kernelOut x W1 b1 W2 b2 W3 b3 Wc1 bc1 Wc2 bc2 e batch := by
  unfold refOut Cert.KernelIdeal.KValue.kernelOut Cert.KernelIdeal.KValue.lastFeatures Cert.KernelIdeal.KValue.nextProduct
    Cert.KernelIdeal.Region4.mlp
  simp only [hidden_eq]
  rw [dotB, addf_hostSpread_eq _ _ _ _ Cert.KernelIdeal.Gen.shapeCasts_S32_S1x32, maximumf_hostSplat_eq, dotC,
    addf_hostSpread_eq _ _ _ _ Cert.KernelIdeal.Gen.shapeCasts_S2_S1x2, agg_eq, pool_eq]

end Cert.ReferenceIdeal.RefValue

end
-- ==== Proof.lean ====
/-
  The certificate of the three-layer graph convolution with mean pooling and a two-layer classifier.

  The kernel's program runs the three feature products and the classifier on the TensorCore, in five launches, and the
  graph side (the edges' normalisations, the message passing, the pooling) as host operations between them; the reference
  computes everything with host operations.  The two group the same exact operations differently — the kernel's
  launches fuse a layer's bias and clamp with the next layer's product — and change the float format on the way into
  each product, which keeps every number.  So both end at one function of the thirteen argument arrays
  (`KValue.kernelOut`): the kernel's program by its run read boundary by boundary (`KRun.run`), the reference by its run's
  composed term rewritten into the same vocabulary (`RefValue.res_eq`, `RefValue.refOut_eq_kernelOut`).  No algebraic law
  beyond that regrouping is used, so the precondition is never opened.  The three frames: the two kernel programs' are
  the generated frame certificates; the reference's is its run with the result dropped.  The ideal pass rewrote
  nothing, so `preserves` is `True`.
-/
import proofs.«100298_j9079560864408_1_alg».proof.Defs
import proofs.«100298_j9079560864408_1_alg».proof.Proof.Gen.Kernel
import proofs.«100298_j9079560864408_1_alg».proof.Proof.Gen.Kernel.Skeleton
import proofs.«100298_j9079560864408_1_alg».proof.Proof.Gen.Kernel.Launch
import proofs.«100298_j9079560864408_1_alg».proof.Proof.Gen.Kernel.Points
import proofs.«100298_j9079560864408_1_alg».proof.Proof.Gen.Kernel.Frame
import proofs.«100298_j9079560864408_1_alg».proof.Proof.Gen.KernelIdeal
import proofs.«100298_j9079560864408_1_alg».proof.Proof.Gen.KernelIdeal.Skeleton
import proofs.«100298_j9079560864408_1_alg».proof.Proof.Gen.KernelIdeal.Launch
import proofs.«100298_j9079560864408_1_alg».proof.Proof.Gen.KernelIdeal.Points
import proofs.«100298_j9079560864408_1_alg».proof.Proof.Gen.KernelIdeal.Frame
import proofs.«100298_j9079560864408_1_alg».proof.Proof.Gen.ReferenceIdeal
import proofs.«100298_j9079560864408_1_alg».proof.Proof.Gen.Pre_finite_inputs
import proofs.«100298_j9079560864408_1_alg».proof.Proof.RefRun
import proofs.«100298_j9079560864408_1_alg».proof.Proof.KRun
import proofs.«100298_j9079560864408_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two programs, run from memories that agree on the arguments, end at the same function of the arguments. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, Cert.ReferenceIdeal.RefValue.refOut_eq_kernelOut]
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
